-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x47 : Shape := ⟨2, ![128, 47]⟩
abbrev S47 : Shape := ⟨1, ![47]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x47 : S_.BroadcastsInDim S128x47 (![] : Fin 0 → Fin S128x47.rank)
  reducesTo_S128x47_S_d0_1 : S128x47.ReducesTo [0, 1] S_
  bcast_S_S47 : S_.BroadcastsInDim S47 (![] : Fin 0 → Fin S47.rank)
  reducesTo_S47_S_d0 : S47.ReducesTo [0] S_

variable [Facts]

def fn_part1 {F : FTy → Type} [FloatOps F] (main_arg5 : FVec F S128 .f32) (main_arg6 : FVec F S128x47 .f32) (main_arg7 : FVec F S47 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x47 .f32 := Host.absf main_arg6
  let main_cst_8 : FVec F S_ .f32 := constant S_ .f32 0x7F800000#32
  let main_v25 : FVec F S128x47 .f32 := broadcastInDim S128x47 ![] bcast_S_S128x47 main_cst_8
  let main_v26 : IVec S128x47 1 := cmpf .olt main_v24 main_v25
  let main_c_9 : IVec S_ 1 := constantI S_ 1 1#1
  let main_v27 : IVec S_ 1 := (fun x v => Host.reduce IntOp.andi x v reducesTo_S128x47_S_d0_1 h_S_) main_v26 main_c_9
  let main_v28 : IVec S_ 1 := andi main_v23 main_v27
  let main_v29 : FVec F S47 .f32 := Host.absf main_arg7
  let main_cst_10 : FVec F S_ .f32 := constant S_ .f32 0x7F800000#32
  let main_v30 : FVec F S47 .f32 := broadcastInDim S47 ![] bcast_S_S47 main_cst_10
  let main_v31 : IVec S47 1 := cmpf .olt main_v29 main_v30
  let main_c_11 : IVec S_ 1 := constantI S_ 1 1#1
  let main_v32 : IVec S_ 1 := (fun x v => Host.reduce IntOp.andi x v reducesTo_S47_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128x47 .f32) (main_arg7 : FVec F S47 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x47 : Shape := ⟨2, ![128, 47]⟩
abbrev S47 : Shape := ⟨1, ![47]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S2000x128 : Shape := ⟨2, ![2000, 128]⟩
abbrev S1700000x128 : Shape := ⟨2, ![1700000, 128]⟩
abbrev S1x128 : Shape := ⟨2, ![1, 128]⟩
abbrev S100000x47 : Shape := ⟨2, ![100000, 47]⟩
abbrev S2000x47 : Shape := ⟨2, ![2000, 47]⟩
abbrev S1700000x47 : Shape := ⟨2, ![1700000, 47]⟩
abbrev S1x47 : Shape := ⟨2, ![1, 47]⟩
abbrev S2000 : Shape := ⟨1, ![2000]⟩
abbrev S2000x1 : Shape := ⟨2, ![2000, 1]⟩

abbrev nBuf : Space → Nat
  | .hbm => 118
  | .vmem => 19
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x47, .f32⟩
  | .hbm, ⟨7, _⟩ => ⟨S47, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000, .f32⟩
  | .hbm, ⟨50, _⟩ => ⟨S1700000, .f32⟩
  | .hbm, ⟨51, _⟩ => ⟨S100000x128, .f32⟩
  | .hbm, ⟨52, _⟩ => ⟨S_, .i32⟩
  | .hbm, ⟨53, _⟩ => ⟨S1700000, .i32⟩
  | .hbm, ⟨54, _⟩ => ⟨S1700000, .i1⟩
  | .hbm, ⟨55, _⟩ => ⟨S_, .i32⟩
  | .hbm, ⟨56, _⟩ => ⟨S1700000, .i32⟩
  | .hbm, ⟨57, _⟩ => ⟨S1700000, .i32⟩
  | .hbm, ⟨58, _⟩ => ⟨S1700000, .i32⟩
  | .hbm, ⟨59, _⟩ => ⟨S1700000x1, .i32⟩
  | .hbm, ⟨60, _⟩ => ⟨S1700000x128, .f32⟩
  | .hbm, ⟨61, _⟩ => ⟨S1700000x1, .f32⟩
  | .hbm, ⟨62, _⟩ => ⟨S1700000x128, .f32⟩
  | .hbm, ⟨63, _⟩ => ⟨S1700000x128, .f32⟩
  | .hbm, ⟨64, _⟩ => ⟨S_, .f32⟩
  | .hbm, ⟨65, _⟩ => ⟨S100000x128, .f32⟩
  | .hbm, ⟨66, _⟩ => ⟨S1700000x1, .i32⟩
  | .hbm, ⟨67, _⟩ => ⟨S100000x128, .f32⟩
  | .hbm, ⟨68, _⟩ => ⟨S1x128, .f32⟩
  | .hbm, ⟨69, _⟩ => ⟨S100000x128, .f32⟩
  | .hbm, ⟨70, _⟩ => ⟨S100000x128, .f32⟩
  | .hbm, ⟨71, _⟩ => ⟨S_, .f32⟩
  | .hbm, ⟨72, _⟩ => ⟨S100000x128, .f32⟩
  | .hbm, ⟨73, _⟩ => ⟨S100000x128, .f32⟩
  | .hbm, ⟨74, _⟩ => ⟨S100000x128, .f32⟩
  | .hbm, ⟨75, _⟩ => ⟨S_, .i32⟩
  | .hbm, ⟨76, _⟩ => ⟨S1700000, .i32⟩
  | .hbm, ⟨77, _⟩ => ⟨S1700000, .i1⟩
  | .hbm, ⟨78, _⟩ => ⟨S_, .i32⟩
  | .hbm, ⟨79, _⟩ => ⟨S1700000, .i32⟩
  | .hbm, ⟨80, _⟩ => ⟨S1700000, .i32⟩
  | .hbm, ⟨81, _⟩ => ⟨S1700000, .i32⟩
  | .hbm, ⟨82, _⟩ => ⟨S1700000x1, .i32⟩
  | .hbm, ⟨83, _⟩ => ⟨S1700000x128, .f32⟩
  | .hbm, ⟨84, _⟩ => ⟨S1700000x1, .f32⟩
  | .hbm, ⟨85, _⟩ => ⟨S1700000x128, .f32⟩
  | .hbm, ⟨86, _⟩ => ⟨S1700000x128, .f32⟩
  | .hbm, ⟨87, _⟩ => ⟨S_, .f32⟩
  | .hbm, ⟨88, _⟩ => ⟨S100000x128, .f32⟩
  | .hbm, ⟨89, _⟩ => ⟨S1700000x1, .i32⟩
  | .hbm, ⟨90, _⟩ => ⟨S100000x128, .f32⟩
  | .hbm, ⟨91, _⟩ => ⟨S1x128, .f32⟩
  | .hbm, ⟨92, _⟩ => ⟨S100000x128, .f32⟩
  | .hbm, ⟨93, _⟩ => ⟨S100000x128, .f32⟩
  | .hbm, ⟨94, _⟩ => ⟨S_, .f32⟩
  | .hbm, ⟨95, _⟩ => ⟨S100000x128, .f32⟩
  | .hbm, ⟨96, _⟩ => ⟨S100000x128, .f32⟩
  | .hbm, ⟨97, _⟩ => ⟨S100000x47, .f32⟩
  | .hbm, ⟨98, _⟩ => ⟨S_, .i32⟩
  | .hbm, ⟨99, _⟩ => ⟨S1700000, .i32⟩
  | .hbm, ⟨100, _⟩ => ⟨S1700000, .i1⟩
  | .hbm, ⟨101, _⟩ => ⟨S_, .i32⟩
  | .hbm, ⟨102, _⟩ => ⟨S1700000, .i32⟩
  | .hbm, ⟨103, _⟩ => ⟨S1700000, .i32⟩
  | .hbm, ⟨104, _⟩ => ⟨S1700000, .i32⟩
  | .hbm, ⟨105, _⟩ => ⟨S1700000x1, .i32⟩
  | .hbm, ⟨106, _⟩ => ⟨S1700000x47, .f32⟩
  | .hbm, ⟨107, _⟩ => ⟨S1700000x1, .f32⟩
  | .hbm, ⟨108, _⟩ => ⟨S1700000x47, .f32⟩
  | .hbm, ⟨109, _⟩ => ⟨S1700000x47, .f32⟩
  | .hbm, ⟨110, _⟩ => ⟨S_, .f32⟩
  | .hbm, ⟨111, _⟩ => ⟨S100000x47, .f32⟩
  | .hbm, ⟨112, _⟩ => ⟨S1700000x1, .i32⟩
  | .hbm, ⟨113, _⟩ => ⟨S100000x47, .f32⟩
  | .hbm, ⟨114, _⟩ => ⟨S1x47, .f32⟩
  | .hbm, ⟨115, _⟩ => ⟨S100000x47, .f32⟩
  | .hbm, ⟨116, _⟩ => ⟨S100000x47, .f32⟩
  | .hbm, ⟨117, _⟩ => ⟨S100000x47, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S128x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S128x47, .f32⟩
  | .local _ .vmem, ⟨13, _⟩ => ⟨S2000x47, .f32⟩
  | .local _ .vmem, ⟨14, _⟩ => ⟨S2000x47, .f32⟩
  | .local _ .vmem, ⟨15, _⟩ => ⟨S2000x47, .f32⟩
  | .local _ .vmem, ⟨16, _⟩ => ⟨S2000x47, .f32⟩
  | .local _ .vmem, ⟨17, _⟩ => ⟨S2000x47, .f32⟩
  | .local _ .vmem, ⟨18, _⟩ => ⟨S2000x47, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call1_cst : Ref sig .tc := ⟨.hbm, 71, rfl⟩
abbrev main_call1_v0 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_c_11 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_12 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_call2_cst : Ref sig .tc := ⟨.hbm, 94, rfl⟩
abbrev main_call2_v0 : Ref sig .tc := ⟨.hbm, 95, rfl⟩
abbrev main_v67 : Ref sig .tc := ⟨.hbm, 96, rfl⟩
abbrev main_v68 : Ref sig .tc := ⟨.hbm, 97, rfl⟩
abbrev main_c_13 : Ref sig .tc := ⟨.hbm, 98, rfl⟩
abbrev main_v69 : Ref sig .tc := ⟨.hbm, 99, rfl⟩
abbrev main_v70 : Ref sig .tc := ⟨.hbm, 100, rfl⟩
abbrev main_c_14 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_cst_15 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg1_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem1_1 : DmaSem sig := 18

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x47 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x47 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x47 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x47 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S2000x128_S2000x128 : S2000x128.ShapeCasts S2000x128
  inb_S128x47_S128x47_0_0 : ∀ a, (![0, 0] : Fin 2 → Nat) a + S128x47.size a ≤ S128x47.size a
  h_S128x47 : 0 < S128x47.numel
  inb_S2000x47_S2000x47_0_0 : ∀ a, (![0, 0] : Fin 2 → Nat) a + S2000x47.size a ≤ S2000x47.size a
  h_S2000x47 : 0 < S2000x47.numel
  bcast_S1700000x1_S1700000x47_0_1 : S1700000x1.BroadcastsInDim S1700000x47 (![0, 1] : Fin 2 → Fin S1700000x47.rank)
  bcast_S_S100000x47 : S_.BroadcastsInDim S100000x47 (![] : Fin 0 → Fin S100000x47.rank)
  bcast_S47_S1x47_1 : S47.BroadcastsInDim S1x47 (![1] : Fin 1 → Fin S1x47.rank)
  bcast_S1x47_S100000x47_0_1 : S1x47.BroadcastsInDim S100000x47 (![0, 1] : Fin 2 → Fin S100000x47.rank)
  shapeCasts_S2000x47_S2000x47 : S2000x47.ShapeCasts S2000x47
  reduces_S2000x47_S2000 : S2000x47.Reduces [1] S2000
  shapeCasts_S2000_S2000x1 : S2000.ShapeCasts S2000x1
  broadcasts_S2000x1_S2000x47 : S2000x1.Broadcasts S2000x47
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S2000x128_S128x128_S2000x128_1_0_0_1_n_n_wf : DotDims.WF S2000x128 S128x128 S2000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S2000x128_S128x47_S2000x47_1_0_0_1_n_n_wf : DotDims.WF S2000x128 S128x47 S2000x47 [1] [0] [0] [1] [] []
  gather_S100000x47_S1700000x1_S1700000x47_1_0_n_n_0_1_147_wf : GatherDims.WF S100000x47 S1700000x1 S1700000x47 [1] [0] [] [0] [] 1 ![1, 47]
  scatter_S100000x47_S1700000x1_S1700000x47_1_0_0_1_wf : ScatterDims.WF S100000x47 S1700000x1 S1700000x47 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S100000x128.size a
  hwx1_2 : ∀ i : grid1.Coords, EltTy.bits .f32 = 32 ∨ (Rect.block (s := S100000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x47.size a ≤ S128x47.size a
  hwx2_1 : ∀ i : grid2.Coords, EltTy.bits .f32 = 32 ∨ (Rect.block (s := S128x47) S128x47.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x47.size a ≤ S100000x47.size a
  hwx2_2 : ∀ i : grid2.Coords, EltTy.bits .f32 = 32 ∨ (Rect.block (s := S100000x47) S2000x47.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x47.size a ≤ S100000x47.size a
  hwx3_0 : ∀ i : grid3.Coords, EltTy.bits .f32 = 32 ∨ (Rect.block (s := S100000x47) S2000x47.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x47.size a ≤ S100000x47.size a
  hwx3_1 : ∀ i : grid3.Coords, EltTy.bits .f32 = 32 ∨ (Rect.block (s := S100000x47) S2000x47.size (cc3_transform_1 i) (hinb3_1 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S2000x128_S128x47_S2000x47_1_0_0_1_n_n : DotDims S2000x128 S128x47 S2000x47 where
  lhsContracting := [1]
  rhsContracting := [0]
  lhsNonContracting := [0]
  rhsNonContracting := [1]
  lhsBatch := []
  rhsBatch := []
  wf := dot_S2000x128_S128x47_S2000x47_1_0_0_1_n_n_wf
def gather_S100000x47_S1700000x1_S1700000x47_1_0_n_n_0_1_147 : GatherDims S100000x47 S1700000x1 S1700000x47 where
  offsetDims := [1]
  collapsedSliceDims := [0]
  operandBatchingDims := []
  startIndicesBatchingDims := []
  startIndexMap := [0]
  indexVectorDim := 1
  sliceSizes := ![1, 47]
  wf := gather_S100000x47_S1700000x1_S1700000x47_1_0_n_n_0_1_147_wf
def scatter_S100000x47_S1700000x1_S1700000x47_1_0_0_1 : ScatterDims S100000x47 S1700000x1 S1700000x47 where
  updateWindowDims := [1]
  insertedWindowDims := [0]
  scatterDimsToOperandDims := [0]
  indexVectorDim := 1
  wf := scatter_S100000x47_S1700000x1_S1700000x47_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v67) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x47.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v68) S2000x47.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v84) S2000x47.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v85) S2000x47.size cc3_transform_1 reads3_1 true false 2 stage3_1 sem3_1
    hrank3 hreads3_1 hinb3_1 nbuf3_1 (Memref.isWhole_whole _) hwx3_1 hstage3_1

abbrev win3 : Fin 2 → Pipeline.Window sig grid3 := fun | 0 => win3_0 | 1 => win3_1 | ⟨_ + 2, h⟩ => absurd h (Nat.not_lt.2 (Nat.le_add_left _ _))
abbrev spec3 : Fin 2 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x47 : Shape := ⟨2, ![128, 47]⟩
abbrev S47 : Shape := ⟨1, ![47]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x47 : Shape := ⟨2, ![100000, 47]⟩
abbrev S1700000x47 : Shape := ⟨2, ![1700000, 47]⟩
abbrev S1x47 : Shape := ⟨2, ![1, 47]⟩
abbrev S100000x1 : Shape := ⟨2, ![100000, 1]⟩

abbrev nBuf : Space → Nat
  | .hbm => 132
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x128, .f32⟩
  | 5 => ⟨S128, .f32⟩
  | 6 => ⟨S128x47, .f32⟩
  | 7 => ⟨S47, .f32⟩
  | 8 => ⟨S100000, .i32⟩
  | 9 => ⟨S1x1600000, .i32⟩
  | 10 => ⟨S1600000, .i32⟩
  | 11 => ⟨S1700000, .i32⟩
  | 12 => ⟨S1x1600000, .i32⟩
  | 13 => ⟨S1600000, .i32⟩
  | 14 => ⟨S1700000, .i32⟩
  | 15 => ⟨S_, .f32⟩
  | 16 => ⟨S1700000, .f32⟩
  | 17 => ⟨S_, .f32⟩
  | 18 => ⟨S100000, .f32⟩
  | 19 => ⟨S1700000x1, .i32⟩
  | 20 => ⟨S100000, .f32⟩
  | 21 => ⟨S_, .f32⟩
  | 22 => ⟨S100000, .f32⟩
  | 23 => ⟨S100000, .i1⟩
  | 24 => ⟨S_, .f32⟩
  | 25 => ⟨S100000, .f32⟩
  | 26 => ⟨S100000, .f32⟩
  | 27 => ⟨S100000, .f32⟩
  | 28 => ⟨S_, .f32⟩
  | 29 => ⟨S_, .f32⟩
  | 30 => ⟨S100000, .f32⟩
  | 31 => ⟨S100000, .f32⟩
  | 32 => ⟨S_, .i32⟩
  | 33 => ⟨S1700000, .i32⟩
  | 34 => ⟨S1700000, .i1⟩
  | 35 => ⟨S_, .i32⟩
  | 36 => ⟨S1700000, .i32⟩
  | 37 => ⟨S1700000, .i32⟩
  | 38 => ⟨S1700000, .i32⟩
  | 39 => ⟨S1700000x1, .i32⟩
  | 40 => ⟨S1700000, .f32⟩
  | 41 => ⟨S_, .i32⟩
  | 42 => ⟨S1700000, .i32⟩
  | 43 => ⟨S1700000, .i1⟩
  | 44 => ⟨S_, .i32⟩
  | 45 => ⟨S1700000, .i32⟩
  | 46 => ⟨S1700000, .i32⟩
  | 47 => ⟨S1700000, .i32⟩
  | 48 => ⟨S1700000x1, .i32⟩
  | 49 => ⟨S1700000, .f32⟩
  | 50 => ⟨S1700000, .f32⟩
  | 51 => ⟨S100000x128, .f32⟩
  | 52 => ⟨S_, .i32⟩
  | 53 => ⟨S1700000, .i32⟩
  | 54 => ⟨S1700000, .i1⟩
  | 55 => ⟨S_, .i32⟩
  | 56 => ⟨S1700000, .i32⟩
  | 57 => ⟨S1700000, .i32⟩
  | 58 => ⟨S1700000, .i32⟩
  | 59 => ⟨S1700000x1, .i32⟩
  | 60 => ⟨S1700000x128, .f32⟩
  | 61 => ⟨S1700000x1, .f32⟩
  | 62 => ⟨S1700000x128, .f32⟩
  | 63 => ⟨S1700000x128, .f32⟩
  | 64 => ⟨S_, .f32⟩
  | 65 => ⟨S100000x128, .f32⟩
  | 66 => ⟨S1700000x1, .i32⟩
  | 67 => ⟨S100000x128, .f32⟩
  | 68 => ⟨S1x128, .f32⟩
  | 69 => ⟨S100000x128, .f32⟩
  | 70 => ⟨S100000x128, .f32⟩
  | 71 => ⟨S_, .f32⟩
  | 72 => ⟨S100000x128, .f32⟩
  | 73 => ⟨S100000x128, .f32⟩
  | 74 => ⟨S100000x128, .f32⟩
  | 75 => ⟨S_, .i32⟩
  | 76 => ⟨S1700000, .i32⟩
  | 77 => ⟨S1700000, .i1⟩
  | 78 => ⟨S_, .i32⟩
  | 79 => ⟨S1700000, .i32⟩
  | 80 => ⟨S1700000, .i32⟩
  | 81 => ⟨S1700000, .i32⟩
  | 82 => ⟨S1700000x1, .i32⟩
  | 83 => ⟨S1700000x128, .f32⟩
  | 84 => ⟨S1700000x1, .f32⟩
  | 85 => ⟨S1700000x128, .f32⟩
  | 86 => ⟨S1700000x128, .f32⟩
  | 87 => ⟨S_, .f32⟩
  | 88 => ⟨S100000x128, .f32⟩
  | 89 => ⟨S1700000x1, .i32⟩
  | 90 => ⟨S100000x128, .f32⟩
  | 91 => ⟨S1x128, .f32⟩
  | 92 => ⟨S100000x128, .f32⟩
  | 93 => ⟨S100000x128, .f32⟩
  | 94 => ⟨S_, .f32⟩
  | 95 => ⟨S100000x128, .f32⟩
  | 96 => ⟨S100000x128, .f32⟩
  | 97 => ⟨S100000x47, .f32⟩
  | 98 => ⟨S_, .i32⟩
  | 99 => ⟨S1700000, .i32⟩
  | 100 => ⟨S1700000, .i1⟩
  | 101 => ⟨S_, .i32⟩
  | 102 => ⟨S1700000, .i32⟩
  | 103 => ⟨S1700000, .i32⟩
  | 104 => ⟨S1700000, .i32⟩
  | 105 => ⟨S1700000x1, .i32⟩
  | 106 => ⟨S1700000x47, .f32⟩
  | 107 => ⟨S1700000x1, .f32⟩
  | 108 => ⟨S1700000x47, .f32⟩
  | 109 => ⟨S1700000x47, .f32⟩
  | 110 => ⟨S_, .f32⟩
  | 111 => ⟨S100000x47, .f32⟩
  | 112 => ⟨S1700000x1, .i32⟩
  | 113 => ⟨S100000x47, .f32⟩
  | 114 => ⟨S1x47, .f32⟩
  | 115 => ⟨S100000x47, .f32⟩
  | 116 => ⟨S100000x47, .f32⟩
  | 117 => ⟨S_, .f32⟩
  | 118 => ⟨S100000, .f32⟩
  | 119 => ⟨S_, .f32⟩
  | 120 => ⟨S100000, .f32⟩
  | 121 => ⟨S100000, .f32⟩
  | 122 => ⟨S100000x1, .f32⟩
  | 123 => ⟨S100000x47, .f32⟩
  | 124 => ⟨S100000x47, .f32⟩
  | 125 => ⟨S100000x47, .f32⟩
  | 126 => ⟨S_, .f32⟩
  | 127 => ⟨S100000, .f32⟩
  | _ => ⟨S100000x128, .f32⟩

abbrev hbmTy0_1 (i : Nat) : BufTy := match i % 128 with
  | 0 => ⟨S100000x1, .f32⟩
  | 1 => ⟨S100000x1, .f32⟩
  | 2 => ⟨S100000x47, .f32⟩
  | 3 => ⟨S100000x47, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call1_cst : Ref sig .tc := ⟨.hbm, 71, rfl⟩
abbrev main_call1_v0 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_c_11 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_12 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_call2_cst : Ref sig .tc := ⟨.hbm, 94, rfl⟩
abbrev main_call2_v0 : Ref sig .tc := ⟨.hbm, 95, rfl⟩
abbrev main_v67 : Ref sig .tc := ⟨.hbm, 96, rfl⟩
abbrev main_v68 : Ref sig .tc := ⟨.hbm, 97, rfl⟩
abbrev main_c_13 : Ref sig .tc := ⟨.hbm, 98, rfl⟩
abbrev main_v69 : Ref sig .tc := ⟨.hbm, 99, rfl⟩
abbrev main_v70 : Ref sig .tc := ⟨.hbm, 100, rfl⟩
abbrev main_c_14 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_cst_15 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_call3_cst : Ref sig .tc := ⟨.hbm, 117, rfl⟩
abbrev main_call3_v0 : Ref sig .tc := ⟨.hbm, 118, rfl⟩
abbrev main_call3_cst_0 : Ref sig .tc := ⟨.hbm, 119, rfl⟩
abbrev main_call3_v1 : Ref sig .tc := ⟨.hbm, 120, rfl⟩
abbrev main_call3_v2 : Ref sig .tc := ⟨.hbm, 121, rfl⟩
abbrev main_call3_v3 : Ref sig .tc := ⟨.hbm, 122, rfl⟩
abbrev main_call3_v4 : Ref sig .tc := ⟨.hbm, 123, rfl⟩
abbrev main_call3_v5 : Ref sig .tc := ⟨.hbm, 124, rfl⟩
abbrev main_call3_v6 : Ref sig .tc := ⟨.hbm, 125, rfl⟩
abbrev main_call3_cst_1 : Ref sig .tc := ⟨.hbm, 126, rfl⟩
abbrev main_call3_v7 : Ref sig .tc := ⟨.hbm, 127, rfl⟩
abbrev main_call3_v8 : Ref sig .tc := ⟨.hbm, 128, rfl⟩
abbrev main_call3_v9 : Ref sig .tc := ⟨.hbm, 129, rfl⟩
abbrev main_call3_v10 : Ref sig .tc := ⟨.hbm, 130, rfl⟩
abbrev main_v85 : Ref sig .tc := ⟨.hbm, 131, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x47_0_1 : S1700000x1.BroadcastsInDim S1700000x47 (![0, 1] : Fin 2 → Fin S1700000x47.rank)
  bcast_S_S100000x47 : S_.BroadcastsInDim S100000x47 (![] : Fin 0 → Fin S100000x47.rank)
  bcast_S47_S1x47_1 : S47.BroadcastsInDim S1x47 (![1] : Fin 1 → Fin S1x47.rank)
  bcast_S1x47_S100000x47_0_1 : S1x47.BroadcastsInDim S100000x47 (![0, 1] : Fin 2 → Fin S100000x47.rank)
  reducesTo_S100000x47_S100000_d1 : S100000x47.ReducesTo [1] S100000
  h_S_ : 0 < S_.numel
  bcast_S100000_S100000x1_0 : S100000.BroadcastsInDim S100000x1 (![0] : Fin 1 → Fin S100000x1.rank)
  bcast_S100000x1_S100000x47_0_1 : S100000x1.BroadcastsInDim S100000x47 (![0, 1] : Fin 2 → Fin S100000x47.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x47_S100000x47_1_0_0_1_n_n_wf : DotDims.WF S100000x128 S128x47 S100000x47 [1] [0] [0] [1] [] []
  gather_S100000x47_S1700000x1_S1700000x47_1_0_n_n_0_1_147_wf : GatherDims.WF S100000x47 S1700000x1 S1700000x47 [1] [0] [] [0] [] 1 ![1, 47]
  scatter_S100000x47_S1700000x1_S1700000x47_1_0_0_1_wf : ScatterDims.WF S100000x47 S1700000x1 S1700000x47 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x47_S100000x47_1_0_0_1_n_n : DotDims S100000x128 S128x47 S100000x47 where
  lhsContracting := [1]
  rhsContracting := [0]
  lhsNonContracting := [0]
  rhsNonContracting := [1]
  lhsBatch := []
  rhsBatch := []
  wf := dot_S100000x128_S128x47_S100000x47_1_0_0_1_n_n_wf
def gather_S100000x47_S1700000x1_S1700000x47_1_0_n_n_0_1_147 : GatherDims S100000x47 S1700000x1 S1700000x47 where
  offsetDims := [1]
  collapsedSliceDims := [0]
  operandBatchingDims := []
  startIndicesBatchingDims := []
  startIndexMap := [0]
  indexVectorDim := 1
  sliceSizes := ![1, 47]
  wf := gather_S100000x47_S1700000x1_S1700000x47_1_0_n_n_0_1_147_wf
def scatter_S100000x47_S1700000x1_S1700000x47_1_0_0_1 : ScatterDims S100000x47 S1700000x1 S1700000x47 where
  updateWindowDims := [1]
  insertedWindowDims := [0]
  scatterDimsToOperandDims := [0]
  indexVectorDim := 1
  wf := scatter_S100000x47_S1700000x1_S1700000x47_1_0_0_1_wf

class Facts : Prop extends Facts₀ where

variable [Facts]
-- ==== Proof.KRun.lean ====
/-
  The idealized kernel's run with its result named. The program is four pipelined regions among stretches of host
  operations; its run over those segments ends with every buffer the regions do not scope at the last boundary's
  contents (`Gen.W12`: the fold of the host stretches' results and the regions' written-back arrays from the launch
  memory). Here that is stated for the result buffer beside the arguments: after every weakly fair execution the
  result holds `Gen.W12 m ρ c` at its reference, and the arguments are as launched.
-/
import proofs.«151773_j14405320311195_1_alg».proof.Proof.Gen.KernelIdeal.Frame

set_option maxRecDepth 16384

noncomputable section

namespace Cert.KernelIdeal.RunNamed

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the argument arrays as launched: the segments' run, whose last thread state holds every
    unscoped buffer at `Gen.W12`, read against the final state at the result and at each argument. -/
theorem run : θ_run defs (onTc (τ := τ) (main (F := F))) ⟨m, fun _ => 0, ρ⟩ (fun r => ∀ c : Dev nD,
      r.2.mem ((c.tc : Thread nD τ).loc main_v85) = W12 m ρ c (Proc.devRef .tc main_v85)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v85 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c)⟩)

end Cert.KernelIdeal.RunNamed

end
-- ==== Proof.SpecLogSoftmax.lean ====
/-
  The row-wise log-softmax of a [100000, 47] array as the reference program spells it, as ONE function of the array:
  the row maximum taken from -inf (and once more against -inf, which changes nothing), the shift s = x - max,
  and s - log (0 + sum over the row of exp s).
-/
import proofs.«151773_j14405320311195_1_alg».proof.Proof.Gen.ReferenceIdeal
import Idealize.ShloMosaic.PureOps.Ideal

noncomputable section

namespace Cert.Bridge

open Idealize.ShloMosaic Cert.ReferenceIdeal Cert.ReferenceIdeal.Gen

variable {F : FTy → Type} [FloatOps F]

/-- The rows' maxima, from -inf, and once more against a row of -inf. -/
def rowMax (x : FVec F S100000x47 .f32) : FVec F S100000 .f32 :=
  maximumf (broadcastInDim S100000 ![] bcast_S_S100000 (constant S_ .f32 0xFF800000#32))
    (Host.reduce FloatOps.maximumf x (constant S_ .f32 0xFF800000#32) reducesTo_S100000x47_S100000_d1 h_S_)

/-- Every entry minus its row's maximum. -/
def shifted (x : FVec F S100000x47 .f32) : FVec F S100000x47 .f32 :=
  subf x (broadcastInDim S100000x47 ![0, 1] bcast_S100000x1_S100000x47_0_1
    (broadcastInDim S100000x1 ![0] bcast_S100000_S100000x1_0 (rowMax x)))

/-- The log-softmax along the rows: the shifted entry minus the log of its row's sum of exponentials. -/
def logSoftmaxRows (x : FVec F S100000x47 .f32) : FVec F S100000x47 .f32 :=
  subf (shifted x) (broadcastInDim S100000x47 ![0, 1] bcast_S100000x1_S100000x47_0_1
    (Host.log (broadcastInDim S100000x1 ![0] bcast_S100000_S100000x1_0
      (Host.reduceAdd (Host.exp (shifted x)) (constant S_ .f32 0x00000000#32) reducesTo_S100000x47_S100000_d1 h_S_))))

end Cert.Bridge

end
-- ==== Proof.SpecHost.lean ====
/-
  The host stretches the kernel's program and the reference share, each as ONE function of the arrays it reads:
  the edge list with self-loops (source and destination node of each of the 1,700,000 edges), an index array wrapped
  into range as a gather's start indices, the symmetric normalisation d^(-1/2)[src] * d^(-1/2)[dst] from the in-degrees,
  a layer's aggregation (rows of h gathered at the sources, scaled by the edge norm, added into their destination rows,
  plus the bias row), the clamp at zero, and the whole three-layer model over them with the row-wise log-softmax last.
  Nothing here is opened by the proofs that use it: the two programs are shown to apply these same functions.
-/
import proofs.«151773_j14405320311195_1_alg».proof.Proof.SpecLogSoftmax

noncomputable section

namespace Cert.Bridge

open Idealize.ShloMosaic Cert.ReferenceIdeal Cert.ReferenceIdeal.Gen

variable {F : FTy → Type} [FloatOps F]

/-- The source node of every edge: row 0 of the edge list, then the self-loops 0, 1, …, 99999. -/
def srcIdx (e : (⟨S2x1600000, .i32⟩ : BufTy).Contents (Elt F)) : (⟨S1700000, .i32⟩ : BufTy).Contents (Elt F) :=
  concatenate S1700000 0 [⟨S1600000, shapeCast _ (extractStridedSlice S1x1600000 ![0, 0] e slices_S2x1600000_S1x1600000_0_0) shapeCasts_S1x1600000_S1600000⟩, ⟨S100000, iotaInDim S100000 32 0⟩] concatenates_S1600000_S100000_S1700000_d0

/-- The destination node of every edge: row 1 of the edge list, then the self-loops. -/
def dstIdx (e : (⟨S2x1600000, .i32⟩ : BufTy).Contents (Elt F)) : (⟨S1700000, .i32⟩ : BufTy).Contents (Elt F) :=
  concatenate S1700000 0 [⟨S1600000, shapeCast _ (extractStridedSlice S1x1600000 ![1, 0] e slices_S2x1600000_S1x1600000_1_0) shapeCasts_S1x1600000_S1600000⟩, ⟨S100000, iotaInDim S100000 32 0⟩] concatenates_S1600000_S100000_S1700000_d0

/-- An index array as a gather's start indices: a negative index has 100000 added, and the column axis is appended. -/
def wrapIdx (i : (⟨S1700000, .i32⟩ : BufTy).Contents (Elt F)) : (⟨S1700000x1, .i32⟩ : BufTy).Contents (Elt F) :=
  broadcastInDim S1700000x1 ![0] bcast_S1700000_S1700000x1_0
    (select (cmpi .slt i (broadcastInDim S1700000 ![] bcast_S_S1700000 (constantI S_ 32 0#32)))
      (addi i (broadcastInDim S1700000 ![] bcast_S_S1700000 (constantI S_ 32 100000#32))) i)

/-- An index array as a scatter's indices: the column axis appended. -/
def colIdx (i : (⟨S1700000, .i32⟩ : BufTy).Contents (Elt F)) : (⟨S1700000x1, .i32⟩ : BufTy).Contents (Elt F) :=
  broadcastInDim S1700000x1 ![0] bcast_S1700000_S1700000x1_0 i

/-- The in-degree of every node: ones added at the destinations. -/
def degree (d : (⟨S1700000, .i32⟩ : BufTy).Contents (Elt F)) : (⟨S100000, .f32⟩ : BufTy).Contents (Elt F) :=
  Host.scatterAdd scatter_S100000_S1700000x1_S1700000_n_0_0_1
    (broadcastInDim S100000 ![] bcast_S_S100000 (constant S_ .f32 0x00000000#32)) (colIdx d)
    (broadcastInDim S1700000 ![] bcast_S_S1700000 (constant S_ .f32 0x3F800000#32))

/-- The scalar zero. -/
def zeroScalar : (⟨S_, .f32⟩ : BufTy).Contents (Elt F) :=
  constant S_ .f32 0x00000000#32

/-- Where the in-degree is positive. -/
def degPositive (d : (⟨S1700000, .i32⟩ : BufTy).Contents (Elt F)) : (⟨S100000, .i1⟩ : BufTy).Contents (Elt F) :=
  cmpf .ogt (degree d) (broadcastInDim S100000 ![] bcast_S_S100000 (constant S_ .f32 0x00000000#32))

/-- The inverse square root of the in-degree clamped below at one. -/
def degRsqrt (d : (⟨S1700000, .i32⟩ : BufTy).Contents (Elt F)) : (⟨S100000, .f32⟩ : BufTy).Contents (Elt F) :=
  Host.rsqrt (maximumf (degree d) (broadcastInDim S100000 ![] bcast_S_S100000 (constant S_ .f32 0x3F800000#32)))

/-- deg^(-1/2) where the degree is positive (taken of max(deg, 1)), zero elsewhere. -/
def degInvSqrt (d : (⟨S1700000, .i32⟩ : BufTy).Contents (Elt F)) : (⟨S100000, .f32⟩ : BufTy).Contents (Elt F) :=
  select (degPositive d) (degRsqrt d) (broadcastInDim S100000 ![] bcast_S_S100000 (id zeroScalar))

/-- The edge norm: deg^(-1/2) at the source times deg^(-1/2) at the destination. -/
def edgeNorm (s d : (⟨S1700000, .i32⟩ : BufTy).Contents (Elt F)) : (⟨S1700000, .f32⟩ : BufTy).Contents (Elt F) :=
  mulf (Host.gather gather_S100000_S1700000x1_S1700000_n_0_n_n_0_1_1 (degInvSqrt d) (wrapIdx s))
    (Host.gather gather_S100000_S1700000x1_S1700000_n_0_n_n_0_1_1 (degInvSqrt d) (wrapIdx d))

/-- A 128-wide layer's aggregation: rows of `h` gathered at the sources, scaled by the edge norm, added into their
    destination rows from zero, plus the bias row. -/
def aggregate128 (h : (⟨S100000x128, .f32⟩ : BufTy).Contents (Elt F)) (s d : (⟨S1700000, .i32⟩ : BufTy).Contents (Elt F)) (n : (⟨S1700000, .f32⟩ : BufTy).Contents (Elt F)) (b : (⟨S128, .f32⟩ : BufTy).Contents (Elt F)) : (⟨S100000x128, .f32⟩ : BufTy).Contents (Elt F) :=
  addf (Host.scatterAdd scatter_S100000x128_S1700000x1_S1700000x128_1_0_0_1
      (broadcastInDim S100000x128 ![] bcast_S_S100000x128 (constant S_ .f32 0x00000000#32)) (colIdx d)
      (mulf (Host.gather gather_S100000x128_S1700000x1_S1700000x128_1_0_n_n_0_1_1128 h (wrapIdx s))
        (broadcastInDim S1700000x128 ![0, 1] bcast_S1700000x1_S1700000x128_0_1 (broadcastInDim S1700000x1 ![0] bcast_S1700000_S1700000x1_0 n))))
    (broadcastInDim S100000x128 ![0, 1] bcast_S1x128_S100000x128_0_1 (broadcastInDim S1x128 ![1] bcast_S128_S1x128_1 b))

/-- The 47-wide layer's aggregation. -/
def aggregate47 (h : (⟨S100000x47, .f32⟩ : BufTy).Contents (Elt F)) (s d : (⟨S1700000, .i32⟩ : BufTy).Contents (Elt F)) (n : (⟨S1700000, .f32⟩ : BufTy).Contents (Elt F)) (b : (⟨S47, .f32⟩ : BufTy).Contents (Elt F)) : (⟨S100000x47, .f32⟩ : BufTy).Contents (Elt F) :=
  addf (Host.scatterAdd scatter_S100000x47_S1700000x1_S1700000x47_1_0_0_1
      (broadcastInDim S100000x47 ![] bcast_S_S100000x47 (constant S_ .f32 0x00000000#32)) (colIdx d)
      (mulf (Host.gather gather_S100000x47_S1700000x1_S1700000x47_1_0_n_n_0_1_147 h (wrapIdx s))
        (broadcastInDim S1700000x47 ![0, 1] bcast_S1700000x1_S1700000x47_0_1 (broadcastInDim S1700000x1 ![0] bcast_S1700000_S1700000x1_0 n))))
    (broadcastInDim S100000x47 ![0, 1] bcast_S1x47_S100000x47_0_1 (broadcastInDim S1x47 ![1] bcast_S47_S1x47_1 b))

/-- Every entry clamped below at zero. -/
def clampZero128 (x : (⟨S100000x128, .f32⟩ : BufTy).Contents (Elt F)) : (⟨S100000x128, .f32⟩ : BufTy).Contents (Elt F) :=
  maximumf x (broadcastInDim S100000x128 ![] bcast_S_S100000x128 (constant S_ .f32 0x00000000#32))

/-- The dense product into 128 columns. -/
def dense128 (x : (⟨S100000x128, .f32⟩ : BufTy).Contents (Elt F)) (w : (⟨S128x128, .f32⟩ : BufTy).Contents (Elt F)) : (⟨S100000x128, .f32⟩ : BufTy).Contents (Elt F) :=
  Host.dotGeneral dot_S100000x128_S128x128_S100000x128_1_0_0_1_n_n none x w

/-- The dense product into 47 columns. -/
def dense47 (x : (⟨S100000x128, .f32⟩ : BufTy).Contents (Elt F)) (w : (⟨S128x47, .f32⟩ : BufTy).Contents (Elt F)) : (⟨S100000x47, .f32⟩ : BufTy).Contents (Elt F) :=
  Host.dotGeneral dot_S100000x128_S128x47_S100000x47_1_0_0_1_n_n none x w

/-- The first hidden layer's activations. -/
def hidden1 (x0 : (⟨S100000x128, .f32⟩ : BufTy).Contents (Elt F)) (e : (⟨S2x1600000, .i32⟩ : BufTy).Contents (Elt F)) (w1 : (⟨S128x128, .f32⟩ : BufTy).Contents (Elt F)) (b1 : (⟨S128, .f32⟩ : BufTy).Contents (Elt F)) : (⟨S100000x128, .f32⟩ : BufTy).Contents (Elt F) :=
  clampZero128 (aggregate128 (dense128 x0 w1) (srcIdx e) (dstIdx e) (edgeNorm (srcIdx e) (dstIdx e)) b1)

/-- The second hidden layer's activations. -/
def hidden2 (x0 : (⟨S100000x128, .f32⟩ : BufTy).Contents (Elt F)) (e : (⟨S2x1600000, .i32⟩ : BufTy).Contents (Elt F)) (w1 : (⟨S128x128, .f32⟩ : BufTy).Contents (Elt F)) (b1 : (⟨S128, .f32⟩ : BufTy).Contents (Elt F))
    (w2 : (⟨S128x128, .f32⟩ : BufTy).Contents (Elt F)) (b2 : (⟨S128, .f32⟩ : BufTy).Contents (Elt F)) : (⟨S100000x128, .f32⟩ : BufTy).Contents (Elt F) :=
  clampZero128 (aggregate128 (dense128 (hidden1 x0 e w1 b1) w2) (srcIdx e) (dstIdx e) (edgeNorm (srcIdx e) (dstIdx e)) b2)

/-- The output layer before the log-softmax. -/
def logits (x0 : (⟨S100000x128, .f32⟩ : BufTy).Contents (Elt F)) (e : (⟨S2x1600000, .i32⟩ : BufTy).Contents (Elt F)) (w1 : (⟨S128x128, .f32⟩ : BufTy).Contents (Elt F)) (b1 : (⟨S128, .f32⟩ : BufTy).Contents (Elt F))
    (w2 : (⟨S128x128, .f32⟩ : BufTy).Contents (Elt F)) (b2 : (⟨S128, .f32⟩ : BufTy).Contents (Elt F)) (w3 : (⟨S128x47, .f32⟩ : BufTy).Contents (Elt F)) (b3 : (⟨S47, .f32⟩ : BufTy).Contents (Elt F)) : (⟨S100000x47, .f32⟩ : BufTy).Contents (Elt F) :=
  aggregate47 (dense47 (hidden2 x0 e w1 b1 w2 b2) w3) (srcIdx e) (dstIdx e) (edgeNorm (srcIdx e) (dstIdx e)) b3

/-- The model's result: the row-wise log-softmax of the output layer. -/
def model (x0 : (⟨S100000x128, .f32⟩ : BufTy).Contents (Elt F)) (e : (⟨S2x1600000, .i32⟩ : BufTy).Contents (Elt F)) (w1 : (⟨S128x128, .f32⟩ : BufTy).Contents (Elt F)) (b1 : (⟨S128, .f32⟩ : BufTy).Contents (Elt F))
    (w2 : (⟨S128x128, .f32⟩ : BufTy).Contents (Elt F)) (b2 : (⟨S128, .f32⟩ : BufTy).Contents (Elt F)) (w3 : (⟨S128x47, .f32⟩ : BufTy).Contents (Elt F)) (b3 : (⟨S47, .f32⟩ : BufTy).Contents (Elt F)) : (⟨S100000x47, .f32⟩ : BufTy).Contents (Elt F) :=
  logSoftmaxRows (logits x0 e w1 b1 w2 b2 w3 b3)

end Cert.Bridge

end
-- ==== Proof.LibTypedRef.lean ====
/-
  Typed references of an inlined function call: contents carried along a type equation and back.

  A value of a called function lives in a buffer whose declared type equals the value's type by an equation
  (`StableHlo.TRef.ty_eq`); the builders of a called function's operations carry contents across that equation in both
  directions (`toBuf`, `ofBuf`: a `cast`). Three facts, none of which looks inside the contents:
    * `ofBuf_toBuf`: to the buffer's type and back is the identity, for any typed reference;
    * `toBuf_of`, `ofBuf_of`: at a literal reference taken at its own type each direction is the identity.
  With them the result of a line of a called function's operations is read free of casts, whatever the contents are.
  Imports Lib/StableHlo only; general in the signature and the element values.
-/
import Idealize.ShloMosaic.Lib.StableHlo

namespace Cert.TypedRef

open Idealize.ShloMosaic

/-- Contents carried to a typed reference's buffer type and back are unchanged. -/
theorem ofBuf_toBuf {sg : RefSig} {Val : EltTy → Type} {T : BufTy} (x : StableHlo.TRef sg T) (v : T.Contents Val) :
    x.ofBuf (x.toBuf v) = v := by
  obtain ⟨r, h, h2, h3⟩ := x
  subst h
  rfl

/-- At a reference taken at its own type, carrying contents to the buffer's type is the identity. -/
theorem toBuf_of {sg : RefSig} {Val : EltTy → Type} (r : Ref sg .tc) (h1 : r.ty = r.ty) (h2 : r.space ≠ .host)
    (h3 : r.isScoped = false) (v : r.ty.Contents Val) : (StableHlo.TRef.of (T := r.ty) r h1 h2 h3).toBuf v = v := rfl

/-- And carrying them back is the identity. -/
theorem ofBuf_of {sg : RefSig} {Val : EltTy → Type} (r : Ref sg .tc) (h1 : r.ty = r.ty) (h2 : r.space ≠ .host)
    (h3 : r.isScoped = false) (v : r.ty.Contents Val) : (StableHlo.TRef.of (T := r.ty) r h1 h2 h3).ofBuf v = v := rfl

end Cert.TypedRef
-- ==== Proof.RegionLinear.lean ====
/-
  A linear layer's product, computed by row blocks, is the product of the whole arrays.

  Each of the three linear regions multiplies a [100000, 128] array A by a weight matrix B ([128, 128] twice, then
  [128, 47]) in 50 grid points: point t reads rows 2000·t … 2000·t + 1999 of A and the whole of B, forms their matrix
  product into a zero accumulator, and writes it to the same rows of the result. Over the extended reals a change of
  float format is the identity, so entry (p, q) of the block product is ∑ k, A (2000·t + p, k) * B (k, q), which is
  entry (2000·t + p, q) of the host's product of A and B; the 50 row blocks cover the result, so after the region the
  result array IS the host product of the two arrays the region finds. No finiteness is needed.
-/
import proofs.«151773_j14405320311195_1_alg».proof.Proof.Gen.KernelIdeal.Frame
import proofs.«151773_j14405320311195_1_alg».proof.Proof.Gen.ReferenceIdeal
import Idealize.ShloMosaic.PureOps.Ideal.Laws
import Idealize.ShloMosaic.Lib.Pipeline.Value
import Idealize.ShloMosaic.Lib.ValueIdx

set_option maxRecDepth 16384

noncomputable section

namespace Cert.Bridge

open Idealize.ShloMosaic Idealize.ShloMosaic.TcCoe Idealize.SL.Sem Idealize.ShloMosaic.ValueIdx
open Idealize.ShloMosaic.Pipeline (Dat)
open Cert.KernelIdeal Cert.KernelIdeal.Gen

/-- The zero offsets of a whole-block access, however they are spelt. -/
theorem zero_offsets : (![0, 0] : Fin 2 → Nat) = fun _ => 0 := funext fun a => by fin_cases a <;> rfl

/-! ## Products with 128 columns: a block of 2000 rows, and the whole array -/

/-- The contraction of a block of 2000 rows with the weights: [2000, 128] × [128, 128] → [2000, 128]. -/
abbrev blockDims128 : DotDims S2000x128 S128x128 S2000x128 := Cert.KernelIdeal.dot_S2000x128_S128x128_S2000x128_1_0_0_1_n_n
/-- The contraction of the whole array with the weights: [100000, 128] × [128, 128] → [100000, 128]. -/
abbrev arrayDims128 : DotDims S100000x128 S128x128 S100000x128 := Cert.ReferenceIdeal.dot_S100000x128_S128x128_S100000x128_1_0_0_1_n_n

/-- The left operand is read at the output's row … -/
theorem blockDims128_lhs_row (i : S2000x128.Idx) (q : blockDims128.contr.Idx) : (blockDims128.lhsIdx i q 0).val = (i 0).val := by
  unfold DotDims.lhsIdx
  rw [dif_neg (show ¬(0 : Fin S2000x128.rank) ∈ blockDims128.lhsBatch by decide), dif_pos (show (0 : Fin S2000x128.rank) ∈ blockDims128.lhsNonContracting by decide)]
  rfl
/-- … and the contraction coordinate; -/
theorem blockDims128_lhs_col (i : S2000x128.Idx) (q : blockDims128.contr.Idx) : (blockDims128.lhsIdx i q 1).val = (q ⟨0, by decide⟩).val :=
  blockDims128.lhsIdx_val_of_single rfl i q
/-- the right operand at the contraction coordinate … -/
theorem blockDims128_rhs_row (i : S2000x128.Idx) (q : blockDims128.contr.Idx) : (blockDims128.rhsIdx i q 0).val = (q ⟨0, by decide⟩).val :=
  blockDims128.rhsIdx_val_of_single rfl i q
/-- … and the output's column. -/
theorem blockDims128_rhs_col (i : S2000x128.Idx) (q : blockDims128.contr.Idx) : (blockDims128.rhsIdx i q 1).val = (i 1).val := by
  unfold DotDims.rhsIdx
  rw [dif_neg (show ¬(1 : Fin S128x128.rank) ∈ blockDims128.rhsBatch by decide), dif_pos (show (1 : Fin S128x128.rank) ∈ blockDims128.rhsNonContracting by decide)]
  rfl

/-- The same four readings for the whole array's contraction. -/
theorem arrayDims128_lhs_row (i : S100000x128.Idx) (q : arrayDims128.contr.Idx) : (arrayDims128.lhsIdx i q 0).val = (i 0).val := by
  unfold DotDims.lhsIdx
  rw [dif_neg (show ¬(0 : Fin S100000x128.rank) ∈ arrayDims128.lhsBatch by decide), dif_pos (show (0 : Fin S100000x128.rank) ∈ arrayDims128.lhsNonContracting by decide)]
  rfl
theorem arrayDims128_lhs_col (i : S100000x128.Idx) (q : arrayDims128.contr.Idx) : (arrayDims128.lhsIdx i q 1).val = (q ⟨0, by decide⟩).val :=
  arrayDims128.lhsIdx_val_of_single rfl i q
theorem arrayDims128_rhs_row (i : S100000x128.Idx) (q : arrayDims128.contr.Idx) : (arrayDims128.rhsIdx i q 0).val = (q ⟨0, by decide⟩).val :=
  arrayDims128.rhsIdx_val_of_single rfl i q
theorem arrayDims128_rhs_col (i : S100000x128.Idx) (q : arrayDims128.contr.Idx) : (arrayDims128.rhsIdx i q 1).val = (i 1).val := by
  unfold DotDims.rhsIdx
  rw [dif_neg (show ¬(1 : Fin S128x128.rank) ∈ arrayDims128.rhsBatch by decide), dif_pos (show (1 : Fin S128x128.rank) ∈ arrayDims128.rhsNonContracting by decide)]
  rfl

/-- Entry (p, q) of a block's product into a zero accumulator, the operands' formats changed (the identity over the
    extended reals): the sum over k of x (p, k) * w (k, q). -/
theorem blockProduct128_entry (x : FVec Ideal S2000x128 .f32) (w : FVec Ideal S128x128 .f32) (p : Fin 2000) (q : Fin 128) :
    matmul (F := Ideal) blockDims128 none (truncf .bf16 x bitsLt_bf16_f32) (truncf .bf16 w bitsLt_bf16_f32)
        (constant S2000x128 .f32 0x00000000#32) (ix2 p q)
      = ∑ k : Fin 128, x (ix2 p k) * w (ix2 k q) := by
  refine (Ideal.matmul_constant_zero_apply blockDims128 none _ _ (ix2 p q)).trans ?_
  rw [← Equiv.sum_comp (contrEquiv1 blockDims128 128 rfl rfl).symm]
  refine Finset.sum_congr rfl fun k _ => ?_
  have hk := contrEquiv1_symm_val blockDims128 128 rfl rfl k
  have el : blockDims128.lhsIdx (ix2 p q) ((contrEquiv1 blockDims128 128 rfl rfl).symm k) = ix2 p k := funext fun a => Fin.ext (by
    match a with
    | ⟨0, _⟩ => exact blockDims128_lhs_row _ _
    | ⟨1, _⟩ => exact (blockDims128_lhs_col _ _).trans hk)
  have er : blockDims128.rhsIdx (ix2 p q) ((contrEquiv1 blockDims128 128 rfl rfl).symm k) = ix2 k q := funext fun a => Fin.ext (by
    match a with
    | ⟨0, _⟩ => exact (blockDims128_rhs_row _ _).trans hk
    | ⟨1, _⟩ => exact blockDims128_rhs_col _ _)
  rw [el, er]
  rfl

/-- Entry (r, q) of the host's product of the whole arrays: the sum over k of A (r, k) * B (k, q). -/
theorem hostProduct128_entry (A : FVec Ideal S100000x128 .f32) (B : FVec Ideal S128x128 .f32) (r : Fin 100000) (q : Fin 128) :
    Host.dotGeneral (F := Ideal) arrayDims128 none A B (ix2 r q) = ∑ k : Fin 128, A (ix2 r k) * B (ix2 k q) := by
  simp only [Host.dotGeneral]
  rw [Ideal.dotGeneral_apply, ← Equiv.sum_comp (contrEquiv1 arrayDims128 128 rfl rfl).symm]
  refine Finset.sum_congr rfl fun k _ => ?_
  have hk := contrEquiv1_symm_val arrayDims128 128 rfl rfl k
  have el : arrayDims128.lhsIdx (ix2 r q) ((contrEquiv1 arrayDims128 128 rfl rfl).symm k) = ix2 r k := funext fun a => Fin.ext (by
    match a with
    | ⟨0, _⟩ => exact arrayDims128_lhs_row _ _
    | ⟨1, _⟩ => exact (arrayDims128_lhs_col _ _).trans hk)
  have er : arrayDims128.rhsIdx (ix2 r q) ((contrEquiv1 arrayDims128 128 rfl rfl).symm k) = ix2 k q := funext fun a => Fin.ext (by
    match a with
    | ⟨0, _⟩ => exact (arrayDims128_rhs_row _ _).trans hk
    | ⟨1, _⟩ => exact arrayDims128_rhs_col _ _)
  rw [el, er]

/-- A BLOCK OF ROWS OF THE PRODUCT: entry (p, q) of the block's product is entry (r, q) of the whole product, when
    row p of the block is row r of the array and the weight block is the weight array. -/
theorem blockProduct128_eq_host (A : FVec Ideal S100000x128 .f32) (B : FVec Ideal S128x128 .f32)
    (x : FVec Ideal S2000x128 .f32) (w : FVec Ideal S128x128 .f32) (p : Fin 2000) (q : Fin 128) (r : Fin 100000)
    (hx : ∀ k : Fin 128, x (ix2 p k) = A (ix2 r k)) (hw : ∀ k : Fin 128, w (ix2 k q) = B (ix2 k q)) :
    matmul (F := Ideal) blockDims128 none (truncf .bf16 x bitsLt_bf16_f32) (truncf .bf16 w bitsLt_bf16_f32)
        (constant S2000x128 .f32 0x00000000#32) (ix2 p q)
      = Host.dotGeneral (F := Ideal) arrayDims128 none A B (ix2 r q) := by
  rw [blockProduct128_entry, hostProduct128_entry]
  exact Finset.sum_congr rfl fun k _ => by rw [hx k, hw k]

/-! ## Products with 47 columns: a block of 2000 rows, and the whole array -/

/-- The contraction of a block of 2000 rows with the weights: [2000, 128] × [128, 47] → [2000, 47]. -/
abbrev blockDims47 : DotDims S2000x128 S128x47 S2000x47 := Cert.KernelIdeal.dot_S2000x128_S128x47_S2000x47_1_0_0_1_n_n
/-- The contraction of the whole array with the weights: [100000, 128] × [128, 47] → [100000, 47]. -/
abbrev arrayDims47 : DotDims S100000x128 S128x47 S100000x47 := Cert.ReferenceIdeal.dot_S100000x128_S128x47_S100000x47_1_0_0_1_n_n

/-- The left operand is read at the output's row … -/
theorem blockDims47_lhs_row (i : S2000x47.Idx) (q : blockDims47.contr.Idx) : (blockDims47.lhsIdx i q 0).val = (i 0).val := by
  unfold DotDims.lhsIdx
  rw [dif_neg (show ¬(0 : Fin S2000x128.rank) ∈ blockDims47.lhsBatch by decide), dif_pos (show (0 : Fin S2000x128.rank) ∈ blockDims47.lhsNonContracting by decide)]
  rfl
/-- … and the contraction coordinate; -/
theorem blockDims47_lhs_col (i : S2000x47.Idx) (q : blockDims47.contr.Idx) : (blockDims47.lhsIdx i q 1).val = (q ⟨0, by decide⟩).val :=
  blockDims47.lhsIdx_val_of_single rfl i q
/-- the right operand at the contraction coordinate … -/
theorem blockDims47_rhs_row (i : S2000x47.Idx) (q : blockDims47.contr.Idx) : (blockDims47.rhsIdx i q 0).val = (q ⟨0, by decide⟩).val :=
  blockDims47.rhsIdx_val_of_single rfl i q
/-- … and the output's column. -/
theorem blockDims47_rhs_col (i : S2000x47.Idx) (q : blockDims47.contr.Idx) : (blockDims47.rhsIdx i q 1).val = (i 1).val := by
  unfold DotDims.rhsIdx
  rw [dif_neg (show ¬(1 : Fin S128x47.rank) ∈ blockDims47.rhsBatch by decide), dif_pos (show (1 : Fin S128x47.rank) ∈ blockDims47.rhsNonContracting by decide)]
  rfl

/-- The same four readings for the whole array's contraction. -/
theorem arrayDims47_lhs_row (i : S100000x47.Idx) (q : arrayDims47.contr.Idx) : (arrayDims47.lhsIdx i q 0).val = (i 0).val := by
  unfold DotDims.lhsIdx
  rw [dif_neg (show ¬(0 : Fin S100000x128.rank) ∈ arrayDims47.lhsBatch by decide), dif_pos (show (0 : Fin S100000x128.rank) ∈ arrayDims47.lhsNonContracting by decide)]
  rfl
theorem arrayDims47_lhs_col (i : S100000x47.Idx) (q : arrayDims47.contr.Idx) : (arrayDims47.lhsIdx i q 1).val = (q ⟨0, by decide⟩).val :=
  arrayDims47.lhsIdx_val_of_single rfl i q
theorem arrayDims47_rhs_row (i : S100000x47.Idx) (q : arrayDims47.contr.Idx) : (arrayDims47.rhsIdx i q 0).val = (q ⟨0, by decide⟩).val :=
  arrayDims47.rhsIdx_val_of_single rfl i q
theorem arrayDims47_rhs_col (i : S100000x47.Idx) (q : arrayDims47.contr.Idx) : (arrayDims47.rhsIdx i q 1).val = (i 1).val := by
  unfold DotDims.rhsIdx
  rw [dif_neg (show ¬(1 : Fin S128x47.rank) ∈ arrayDims47.rhsBatch by decide), dif_pos (show (1 : Fin S128x47.rank) ∈ arrayDims47.rhsNonContracting by decide)]
  rfl

/-- Entry (p, q) of a block's product into a zero accumulator, the operands' formats changed (the identity over the
    extended reals): the sum over k of x (p, k) * w (k, q). -/
theorem blockProduct47_entry (x : FVec Ideal S2000x128 .f32) (w : FVec Ideal S128x47 .f32) (p : Fin 2000) (q : Fin 47) :
    matmul (F := Ideal) blockDims47 none (truncf .bf16 x bitsLt_bf16_f32) (truncf .bf16 w bitsLt_bf16_f32)
        (constant S2000x47 .f32 0x00000000#32) (ix2 p q)
      = ∑ k : Fin 128, x (ix2 p k) * w (ix2 k q) := by
  refine (Ideal.matmul_constant_zero_apply blockDims47 none _ _ (ix2 p q)).trans ?_
  rw [← Equiv.sum_comp (contrEquiv1 blockDims47 128 rfl rfl).symm]
  refine Finset.sum_congr rfl fun k _ => ?_
  have hk := contrEquiv1_symm_val blockDims47 128 rfl rfl k
  have el : blockDims47.lhsIdx (ix2 p q) ((contrEquiv1 blockDims47 128 rfl rfl).symm k) = ix2 p k := funext fun a => Fin.ext (by
    match a with
    | ⟨0, _⟩ => exact blockDims47_lhs_row _ _
    | ⟨1, _⟩ => exact (blockDims47_lhs_col _ _).trans hk)
  have er : blockDims47.rhsIdx (ix2 p q) ((contrEquiv1 blockDims47 128 rfl rfl).symm k) = ix2 k q := funext fun a => Fin.ext (by
    match a with
    | ⟨0, _⟩ => exact (blockDims47_rhs_row _ _).trans hk
    | ⟨1, _⟩ => exact blockDims47_rhs_col _ _)
  rw [el, er]
  rfl

/-- Entry (r, q) of the host's product of the whole arrays: the sum over k of A (r, k) * B (k, q). -/
theorem hostProduct47_entry (A : FVec Ideal S100000x128 .f32) (B : FVec Ideal S128x47 .f32) (r : Fin 100000) (q : Fin 47) :
    Host.dotGeneral (F := Ideal) arrayDims47 none A B (ix2 r q) = ∑ k : Fin 128, A (ix2 r k) * B (ix2 k q) := by
  simp only [Host.dotGeneral]
  rw [Ideal.dotGeneral_apply, ← Equiv.sum_comp (contrEquiv1 arrayDims47 128 rfl rfl).symm]
  refine Finset.sum_congr rfl fun k _ => ?_
  have hk := contrEquiv1_symm_val arrayDims47 128 rfl rfl k
  have el : arrayDims47.lhsIdx (ix2 r q) ((contrEquiv1 arrayDims47 128 rfl rfl).symm k) = ix2 r k := funext fun a => Fin.ext (by
    match a with
    | ⟨0, _⟩ => exact arrayDims47_lhs_row _ _
    | ⟨1, _⟩ => exact (arrayDims47_lhs_col _ _).trans hk)
  have er : arrayDims47.rhsIdx (ix2 r q) ((contrEquiv1 arrayDims47 128 rfl rfl).symm k) = ix2 k q := funext fun a => Fin.ext (by
    match a with
    | ⟨0, _⟩ => exact (arrayDims47_rhs_row _ _).trans hk
    | ⟨1, _⟩ => exact arrayDims47_rhs_col _ _)
  rw [el, er]

/-- A BLOCK OF ROWS OF THE PRODUCT: entry (p, q) of the block's product is entry (r, q) of the whole product, when
    row p of the block is row r of the array and the weight block is the weight array. -/
theorem blockProduct47_eq_host (A : FVec Ideal S100000x128 .f32) (B : FVec Ideal S128x47 .f32)
    (x : FVec Ideal S2000x128 .f32) (w : FVec Ideal S128x47 .f32) (p : Fin 2000) (q : Fin 47) (r : Fin 100000)
    (hx : ∀ k : Fin 128, x (ix2 p k) = A (ix2 r k)) (hw : ∀ k : Fin 128, w (ix2 k q) = B (ix2 k q)) :
    matmul (F := Ideal) blockDims47 none (truncf .bf16 x bitsLt_bf16_f32) (truncf .bf16 w bitsLt_bf16_f32)
        (constant S2000x47 .f32 0x00000000#32) (ix2 p q)
      = Host.dotGeneral (F := Ideal) arrayDims47 none A B (ix2 r q) := by
  rw [blockProduct47_entry, hostProduct47_entry]
  exact Finset.sum_congr rfl fun k _ => by rw [hx k, hw k]

/-! ## Region 0: `main_v32` is the product of `main_arg0` and `main_arg2` -/

section Region0

variable (V : (c : Dev nD) → (b : Ref sig .tc) → Buf (Elt Ideal) ((c : Thread nD τ).loc b))

/-- The body's payload is the block product (its definition). -/
theorem payload0_eq (x : Vec Ideal S2000x128 .f32) (w : Vec Ideal S128x128 .f32) :
    k0_pay1 (F := Ideal) x w
      = matmul (F := Ideal) blockDims128 none (truncf .bf16 x bitsLt_bf16_f32) (truncf .bf16 w bitsLt_bf16_f32)
          (constant S2000x128 .f32 0x00000000#32) := rfl

/-- The index maps over the grid: at point t the row-block windows sit at block (t, 0), the weight window at (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- WHAT POINT t WRITES BACK is block t of the host product of the two arrays as the region finds them. -/
theorem flushed0_eq (c : Dev nD) (t : Fin cfg0.N) :
    (dat0 (F := Ideal) V c).flushed 2 t
      = ((cfg0.win 2).blk t).view.read (Elt Ideal)
          (Host.dotGeneral (F := Ideal) (φ₁ := .f32) (φ₂ := .f32) arrayDims128 none (V c main_arg0) (V c main_arg2)) := by
  show (cfg0.win 2).cut (grid0.coords t) ((dat0 (F := Ideal) V c).after 2 t) = _
  rw [after0_2]
  unfold out0_2
  rw [View.canon_unit_zero zero_offsets]
  simp only [View.ld_unit_zero (S := S2000x128) zero_offsets, View.ld_unit_zero (S := S128x128) zero_offsets]
  obtain ⟨e00, e01, e10, e11, e20, e21⟩ := idx_facts0 t
  refine funext fun (j : S2000x128.Idx) => ?_
  obtain ⟨p, q, rfl⟩ : ∃ (p : Fin 2000) (q : Fin 128), j = ix2 p q := ⟨j 0, j 1, eq_ix2 j⟩
  have ht : t.val < 50 := by have h := t.isLt; have hN : cfg0.N = 50 := N_0; omega
  -- the block's entry (p, q) sits in the array at (2000·t + p, q)
  have hi : ((cfg0.win 2).blk t).view.emb (ix2 p q) = (ix2 (⟨2000 * t.val + p.val, by have := p.isLt; omega⟩ : Fin 100000) q : S100000x128.Idx) := by
    funext a; apply Fin.ext
    match a with
    | ⟨0, _⟩ => show win0_2.index t (0 : Fin 2) * 2000 + 1 * p.val = 2000 * t.val + p.val; rw [e20]; omega
    | ⟨1, _⟩ => show win0_2.index t (1 : Fin 2) * 128 + 1 * q.val = q.val; rw [e21]; omega
  show k0_pay1 (F := Ideal) (iblk0 V c 0 t) (iblk0 V c 1 t) (ix2 p q)
    = Host.dotGeneral (F := Ideal) (φ₁ := .f32) (φ₂ := .f32) arrayDims128 none (V c main_arg0) (V c main_arg2) (((cfg0.win 2).blk t).view.emb (ix2 p q))
  rw [hi]
  refine (congrFun (payload0_eq (iblk0 V c 0 t) (iblk0 V c 1 t)) (ix2 p q)).trans ?_
  refine blockProduct128_eq_host (V c main_arg0) (V c main_arg2) (iblk0 V c 0 t) (iblk0 V c 1 t) p q _ ?_ ?_
  · -- row p of the left block is row 2000·t + p of the left array
    intro k
    show V c main_arg0 (((cfg0.win 0).blk t).view.emb (ix2 p k)) = V c main_arg0 _
    refine congrArg (V c main_arg0) (funext fun a => Fin.ext ?_)
    match a with
    | ⟨0, _⟩ => show win0_0.index t (0 : Fin 2) * 2000 + 1 * p.val = 2000 * t.val + p.val; rw [e00]; omega
    | ⟨1, _⟩ => show win0_0.index t (1 : Fin 2) * 128 + 1 * k.val = k.val; rw [e01]; omega
  · -- the weight block is the weight array
    intro k
    show V c main_arg2 (((cfg0.win 1).blk t).view.emb (ix2 k q)) = V c main_arg2 _
    refine congrArg (V c main_arg2) (funext fun a => Fin.ext ?_)
    match a with
    | ⟨0, _⟩ => show win0_1.index t (0 : Fin 2) * 128 + 1 * k.val = k.val; rw [e10]; omega
    | ⟨1, _⟩ => show win0_1.index t (1 : Fin 2) * 128 + 1 * q.val = q.val; rw [e11]; omega

/-- An index of the result array is in point t's block iff each coordinate is in the block's range on its axis. -/
theorem mem_blk0 (t : Fin cfg0.N) (i : S100000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v32).slice (win0_2.rect t)).set ↔ _
  rw [View.set_slice_whole, Rect.mem_set_unit]
  exact Iff.rfl

/-- THE COVER: row r of the result lies in the block of point r / 2000. -/
theorem cover0 (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 50 := N_0
  let t : Fin cfg0.N := ⟨(i 0).val / 2000, by rw [hN]; omega⟩
  obtain ⟨e00, e01, e10, e11, e20, e21⟩ := idx_facts0 t
  have htv : t.val = (i 0).val / 2000 := rfl
  refine ⟨t, flush0_2 t, ?_⟩
  rw [mem_blk0]
  intro a
  match a with
  | ⟨0, _⟩ => show win0_2.index t (0 : Fin 2) * 2000 ≤ (i 0).val ∧ (i 0).val < win0_2.index t (0 : Fin 2) * 2000 + 2000; rw [e20, htv]; omega
  | ⟨1, _⟩ => show win0_2.index t (1 : Fin 2) * 128 ≤ (i 1).val ∧ (i 1).val < win0_2.index t (1 : Fin 2) * 128 + 128; rw [e21]; omega

/-- THE ARRAY after the region: the host product of the region's two input arrays as it finds them. -/
theorem linear0 (c : Dev nD) :
    (dat0 (F := Ideal) V c).arrAt 2 cfg0.N
      = Host.dotGeneral (F := Ideal) (φ₁ := .f32) (φ₂ := .f32) Cert.ReferenceIdeal.dot_S100000x128_S128x128_S100000x128_1_0_0_1_n_n none (V c main_arg0) (V c main_arg2) :=
  (dat0 (F := Ideal) V c).arrAt_eq_of_cover 2 _ (fun t _ => flushed0_eq V c t) (cover0)

end Region0

/-! ## Region 1: `main_v50` is the product of `main_v49` and `main_arg4` -/

section Region1

variable (V : (c : Dev nD) → (b : Ref sig .tc) → Buf (Elt Ideal) ((c : Thread nD τ).loc b))

/-- The body's payload is the block product (a shape cast to the same shape is the identity). -/
theorem payload1_eq (x : Vec Ideal S2000x128 .f32) (w : Vec Ideal S128x128 .f32) :
    k1_pay1 (F := Ideal) x w
      = matmul (F := Ideal) blockDims128 none (truncf .bf16 x bitsLt_bf16_f32) (truncf .bf16 w bitsLt_bf16_f32)
          (constant S2000x128 .f32 0x00000000#32) := by
  unfold k1_pay1
  rw [shapeCast_self]

/-- The index maps over the grid: at point t the row-block windows sit at block (t, 0), the weight window at (0, 0). -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- WHAT POINT t WRITES BACK is block t of the host product of the two arrays as the region finds them. -/
theorem flushed1_eq (c : Dev nD) (t : Fin cfg1.N) :
    (dat1 (F := Ideal) V c).flushed 2 t
      = ((cfg1.win 2).blk t).view.read (Elt Ideal)
          (Host.dotGeneral (F := Ideal) (φ₁ := .f32) (φ₂ := .f32) arrayDims128 none (V c main_v49) (V c main_arg4)) := by
  show (cfg1.win 2).cut (grid1.coords t) ((dat1 (F := Ideal) V c).after 2 t) = _
  rw [after1_2]
  unfold out1_2
  rw [View.canon_unit_zero zero_offsets]
  simp only [View.ld_unit_zero (S := S2000x128) zero_offsets, View.ld_unit_zero (S := S128x128) zero_offsets]
  obtain ⟨e00, e01, e10, e11, e20, e21⟩ := idx_facts1 t
  refine funext fun (j : S2000x128.Idx) => ?_
  obtain ⟨p, q, rfl⟩ : ∃ (p : Fin 2000) (q : Fin 128), j = ix2 p q := ⟨j 0, j 1, eq_ix2 j⟩
  have ht : t.val < 50 := by have h := t.isLt; have hN : cfg1.N = 50 := N_1; omega
  -- the block's entry (p, q) sits in the array at (2000·t + p, q)
  have hi : ((cfg1.win 2).blk t).view.emb (ix2 p q) = (ix2 (⟨2000 * t.val + p.val, by have := p.isLt; omega⟩ : Fin 100000) q : S100000x128.Idx) := by
    funext a; apply Fin.ext
    match a with
    | ⟨0, _⟩ => show win1_2.index t (0 : Fin 2) * 2000 + 1 * p.val = 2000 * t.val + p.val; rw [e20]; omega
    | ⟨1, _⟩ => show win1_2.index t (1 : Fin 2) * 128 + 1 * q.val = q.val; rw [e21]; omega
  show k1_pay1 (F := Ideal) (iblk1 V c 0 t) (iblk1 V c 1 t) (ix2 p q)
    = Host.dotGeneral (F := Ideal) (φ₁ := .f32) (φ₂ := .f32) arrayDims128 none (V c main_v49) (V c main_arg4) (((cfg1.win 2).blk t).view.emb (ix2 p q))
  rw [hi]
  refine (congrFun (payload1_eq (iblk1 V c 0 t) (iblk1 V c 1 t)) (ix2 p q)).trans ?_
  refine blockProduct128_eq_host (V c main_v49) (V c main_arg4) (iblk1 V c 0 t) (iblk1 V c 1 t) p q _ ?_ ?_
  · -- row p of the left block is row 2000·t + p of the left array
    intro k
    show V c main_v49 (((cfg1.win 0).blk t).view.emb (ix2 p k)) = V c main_v49 _
    refine congrArg (V c main_v49) (funext fun a => Fin.ext ?_)
    match a with
    | ⟨0, _⟩ => show win1_0.index t (0 : Fin 2) * 2000 + 1 * p.val = 2000 * t.val + p.val; rw [e00]; omega
    | ⟨1, _⟩ => show win1_0.index t (1 : Fin 2) * 128 + 1 * k.val = k.val; rw [e01]; omega
  · -- the weight block is the weight array
    intro k
    show V c main_arg4 (((cfg1.win 1).blk t).view.emb (ix2 k q)) = V c main_arg4 _
    refine congrArg (V c main_arg4) (funext fun a => Fin.ext ?_)
    match a with
    | ⟨0, _⟩ => show win1_1.index t (0 : Fin 2) * 128 + 1 * k.val = k.val; rw [e10]; omega
    | ⟨1, _⟩ => show win1_1.index t (1 : Fin 2) * 128 + 1 * q.val = q.val; rw [e11]; omega

/-- An index of the result array is in point t's block iff each coordinate is in the block's range on its axis. -/
theorem mem_blk1 (t : Fin cfg1.N) (i : S100000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v50).slice (win1_2.rect t)).set ↔ _
  rw [View.set_slice_whole, Rect.mem_set_unit]
  exact Iff.rfl

/-- THE COVER: row r of the result lies in the block of point r / 2000. -/
theorem cover1 (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 50 := N_1
  let t : Fin cfg1.N := ⟨(i 0).val / 2000, by rw [hN]; omega⟩
  obtain ⟨e00, e01, e10, e11, e20, e21⟩ := idx_facts1 t
  have htv : t.val = (i 0).val / 2000 := rfl
  refine ⟨t, flush1_2 t, ?_⟩
  rw [mem_blk1]
  intro a
  match a with
  | ⟨0, _⟩ => show win1_2.index t (0 : Fin 2) * 2000 ≤ (i 0).val ∧ (i 0).val < win1_2.index t (0 : Fin 2) * 2000 + 2000; rw [e20, htv]; omega
  | ⟨1, _⟩ => show win1_2.index t (1 : Fin 2) * 128 ≤ (i 1).val ∧ (i 1).val < win1_2.index t (1 : Fin 2) * 128 + 128; rw [e21]; omega

/-- THE ARRAY after the region: the host product of the region's two input arrays as it finds them. -/
theorem linear1 (c : Dev nD) :
    (dat1 (F := Ideal) V c).arrAt 2 cfg1.N
      = Host.dotGeneral (F := Ideal) (φ₁ := .f32) (φ₂ := .f32) Cert.ReferenceIdeal.dot_S100000x128_S128x128_S100000x128_1_0_0_1_n_n none (V c main_v49) (V c main_arg4) :=
  (dat1 (F := Ideal) V c).arrAt_eq_of_cover 2 _ (fun t _ => flushed1_eq V c t) (cover1)

end Region1

/-! ## Region 2: `main_v68` is the product of `main_v67` and `main_arg6` -/

section Region2

variable (V : (c : Dev nD) → (b : Ref sig .tc) → Buf (Elt Ideal) ((c : Thread nD τ).loc b))

/-- The body's payload is the block product (a shape cast to the same shape is the identity). -/
theorem payload2_eq (x : Vec Ideal S2000x128 .f32) (w : Vec Ideal S128x47 .f32) :
    k2_pay1 (F := Ideal) x w
      = matmul (F := Ideal) blockDims47 none (truncf .bf16 x bitsLt_bf16_f32) (truncf .bf16 w bitsLt_bf16_f32)
          (constant S2000x47 .f32 0x00000000#32) := by
  unfold k2_pay1
  rw [shapeCast_self]

/-- The index maps over the grid: at point t the row-block windows sit at block (t, 0), the weight window at (0, 0). -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- WHAT POINT t WRITES BACK is block t of the host product of the two arrays as the region finds them. -/
theorem flushed2_eq (c : Dev nD) (t : Fin cfg2.N) :
    (dat2 (F := Ideal) V c).flushed 2 t
      = ((cfg2.win 2).blk t).view.read (Elt Ideal)
          (Host.dotGeneral (F := Ideal) (φ₁ := .f32) (φ₂ := .f32) arrayDims47 none (V c main_v67) (V c main_arg6)) := by
  show (cfg2.win 2).cut (grid2.coords t) ((dat2 (F := Ideal) V c).after 2 t) = _
  rw [after2_2]
  unfold out2_2
  rw [View.canon_unit_zero zero_offsets]
  simp only [View.ld_unit_zero (S := S2000x128) zero_offsets, View.ld_unit_zero (S := S128x47) zero_offsets]
  obtain ⟨e00, e01, e10, e11, e20, e21⟩ := idx_facts2 t
  refine funext fun (j : S2000x47.Idx) => ?_
  obtain ⟨p, q, rfl⟩ : ∃ (p : Fin 2000) (q : Fin 47), j = ix2 p q := ⟨j 0, j 1, eq_ix2 j⟩
  have ht : t.val < 50 := by have h := t.isLt; have hN : cfg2.N = 50 := N_2; omega
  -- the block's entry (p, q) sits in the array at (2000·t + p, q)
  have hi : ((cfg2.win 2).blk t).view.emb (ix2 p q) = (ix2 (⟨2000 * t.val + p.val, by have := p.isLt; omega⟩ : Fin 100000) q : S100000x47.Idx) := by
    funext a; apply Fin.ext
    match a with
    | ⟨0, _⟩ => show win2_2.index t (0 : Fin 2) * 2000 + 1 * p.val = 2000 * t.val + p.val; rw [e20]; omega
    | ⟨1, _⟩ => show win2_2.index t (1 : Fin 2) * 47 + 1 * q.val = q.val; rw [e21]; omega
  show k2_pay1 (F := Ideal) (iblk2 V c 0 t) (iblk2 V c 1 t) (ix2 p q)
    = Host.dotGeneral (F := Ideal) (φ₁ := .f32) (φ₂ := .f32) arrayDims47 none (V c main_v67) (V c main_arg6) (((cfg2.win 2).blk t).view.emb (ix2 p q))
  rw [hi]
  refine (congrFun (payload2_eq (iblk2 V c 0 t) (iblk2 V c 1 t)) (ix2 p q)).trans ?_
  refine blockProduct47_eq_host (V c main_v67) (V c main_arg6) (iblk2 V c 0 t) (iblk2 V c 1 t) p q _ ?_ ?_
  · -- row p of the left block is row 2000·t + p of the left array
    intro k
    show V c main_v67 (((cfg2.win 0).blk t).view.emb (ix2 p k)) = V c main_v67 _
    refine congrArg (V c main_v67) (funext fun a => Fin.ext ?_)
    match a with
    | ⟨0, _⟩ => show win2_0.index t (0 : Fin 2) * 2000 + 1 * p.val = 2000 * t.val + p.val; rw [e00]; omega
    | ⟨1, _⟩ => show win2_0.index t (1 : Fin 2) * 128 + 1 * k.val = k.val; rw [e01]; omega
  · -- the weight block is the weight array
    intro k
    show V c main_arg6 (((cfg2.win 1).blk t).view.emb (ix2 k q)) = V c main_arg6 _
    refine congrArg (V c main_arg6) (funext fun a => Fin.ext ?_)
    match a with
    | ⟨0, _⟩ => show win2_1.index t (0 : Fin 2) * 128 + 1 * k.val = k.val; rw [e10]; omega
    | ⟨1, _⟩ => show win2_1.index t (1 : Fin 2) * 47 + 1 * q.val = q.val; rw [e11]; omega

/-- An index of the result array is in point t's block iff each coordinate is in the block's range on its axis. -/
theorem mem_blk2 (t : Fin cfg2.N) (i : S100000x47.Idx) :
    i ∈ ((cfg2.win 2).blk t).view.set ↔ ∀ a : Fin 2, win2_2.index t a * S2000x47.size a ≤ (i a).val ∧ (i a).val < win2_2.index t a * S2000x47.size a + S2000x47.size a := by
  show i ∈ ((View.whole main_v68).slice (win2_2.rect t)).set ↔ _
  rw [View.set_slice_whole, Rect.mem_set_unit]
  exact Iff.rfl

/-- THE COVER: row r of the result lies in the block of point r / 2000. -/
theorem cover2 (i : S100000x47.Idx) : ∃ t : Fin cfg2.N, (cfg2.win 2).flush t = true ∧ i ∈ ((cfg2.win 2).blk t).view.set := by
  have hi0 : (i 0).val < 100000 := (i 0).isLt
  have hi1 : (i 1).val < 47 := (i 1).isLt
  have hN : cfg2.N = 50 := N_2
  let t : Fin cfg2.N := ⟨(i 0).val / 2000, by rw [hN]; omega⟩
  obtain ⟨e00, e01, e10, e11, e20, e21⟩ := idx_facts2 t
  have htv : t.val = (i 0).val / 2000 := rfl
  refine ⟨t, flush2_2 t, ?_⟩
  rw [mem_blk2]
  intro a
  match a with
  | ⟨0, _⟩ => show win2_2.index t (0 : Fin 2) * 2000 ≤ (i 0).val ∧ (i 0).val < win2_2.index t (0 : Fin 2) * 2000 + 2000; rw [e20, htv]; omega
  | ⟨1, _⟩ => show win2_2.index t (1 : Fin 2) * 47 ≤ (i 1).val ∧ (i 1).val < win2_2.index t (1 : Fin 2) * 47 + 47; rw [e21]; omega

/-- THE ARRAY after the region: the host product of the region's two input arrays as it finds them. -/
theorem linear2 (c : Dev nD) :
    (dat2 (F := Ideal) V c).arrAt 2 cfg2.N
      = Host.dotGeneral (F := Ideal) (φ₁ := .f32) (φ₂ := .f32) Cert.ReferenceIdeal.dot_S100000x128_S128x47_S100000x47_1_0_0_1_n_n none (V c main_v67) (V c main_arg6) :=
  (dat2 (F := Ideal) V c).arrAt_eq_of_cover 2 _ (fun t _ => flushed2_eq V c t) (cover2)

end Region2

end Cert.Bridge

end
-- ==== Proof.RegionLogSoftmax.lean ====
/-
  The log-softmax region. Its result array, after every grid point has written its block back, is the row-wise
  log-softmax chain of the region's input array, as ONE function of that array: with M(r) the maximum of row r taken
  from -inf and s(r, q) = x(r, q) - M(r), entry (r, q) is s(r, q) - log (Σ_k exp s(r, k)).

  Both sides are read at an entry (r, q) as the same function `rowLogSoftmax` of row r. On the kernel's side row p of
  the block at grid point t is row 2000 t + p of the array, the lane maximum and the lane sum are a fold of max and a sum
  over the 47 columns, and the [2000] → [2000, 1] → [2000, 47] layouts read their row's entry. On the reference's side
  the host reductions are the same fold and the same sum (from 0, which adds nothing), the extra maximum against a row
  of -inf changes nothing, and the [100000] → [100000, 1] → [100000, 47] layouts read their row's entry. The blocks
  [2000 t, 2000 t + 2000) × [0, 47) cover the array: row r lies in the block of point r / 2000.
-/
import proofs.«151773_j14405320311195_1_alg».proof.Proof.SpecLogSoftmax
import proofs.«151773_j14405320311195_1_alg».proof.Proof.Gen.KernelIdeal.Frame
import Idealize.ShloMosaic.PureOps.Ideal.Laws
import Idealize.ShloMosaic.Lib.Pipeline.Value
import Idealize.ShloMosaic.Lib.ValueIdx
import Idealize.ShloMosaic.Lib.ValueLayout

noncomputable section

namespace Cert.Bridge

open Idealize.ShloMosaic Idealize.ShloMosaic.ValueIdx

namespace LogSoftmaxRegion

/-! ## Column layouts read at an entry -/

/-- A vector of `a` entries cast to a column `[a, 1]` reads, at `(p, u)`, entry `p`. -/
theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` repeated across `b` columns reads, at `(p, q)`, the column's entry `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- Row `p` of an `[a, b]` array with column `k` put back is the entry `(p, k)`. -/
theorem lift_row {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-! ## The log-softmax of one row -/

/-- The maximum of a row of extended reals, taken from -inf (the f32 word `0xFF800000`). -/
def rowTop {n : ℕ} (row : Fin n → EReal) : EReal :=
  (Finset.univ : Finset (Fin n)).fold max (Ideal.ofBits .f32 0xFF800000#32) row

/-- The log-softmax of one row at column `q`: with `s k = row k - rowTop row`, it is `s q - log (Σ_k exp (s k))`. -/
def rowLogSoftmax {n : ℕ} (row : Fin n → EReal) (q : Fin n) : EReal :=
  (row q - rowTop row) - Ideal.log (∑ k : Fin n, Ideal.exp (row k - rowTop row))

/-! ## The kernel's block -/

/-- A lane maximum from -inf over the columns of an `[a, b]` block, at row `p`, is that row's maximum. -/
theorem laneMax_apply {a b : ℕ} (x0 : FVec Ideal (⟨2, ![a, b]⟩ : Shape) .f32)
    (h : (⟨2, ![a, b]⟩ : Shape).Reduces [1] (⟨1, ![a]⟩ : Shape)) (hφ : FKind.Formats .f32)
    (hacc : (0xFF800000#32 : BitVec (FTy.bits .f32)) = FKind.maximumf.neutral .f32 hφ) (p : Fin a) :
    multiReduction .maximumf [1] (⟨1, ![a]⟩ : Shape) x0 0xFF800000#32 h hφ hacc (ix1 p)
      = rowTop (fun k : Fin b => x0 (ix2 p k)) := by
  refine (Ideal.multiReduction_maximumf_single x0 _ h hφ hacc (ix1 p)).trans ?_
  have hf : (x0 ∘ h.lift (ix1 p)) = fun k : Fin b => x0 (ix2 p k) := funext fun k => congrArg x0 (lift_row h p k)
  exact congrArg (fun f => Finset.fold max (Ideal.ofBits .f32 0xFF800000#32) f (Finset.univ : Finset (Fin b))) hf

/-- A lane sum over the columns of an `[a, b]` block, at row `p`, is the sum of that row. -/
theorem laneSum_apply {a b : ℕ} (x0 : FVec Ideal (⟨2, ![a, b]⟩ : Shape) .f32)
    (h : (⟨2, ![a, b]⟩ : Shape).Reduces [1] (⟨1, ![a]⟩ : Shape)) (hφ : FKind.Formats .f32)
    (hacc : (0x00000000#32 : BitVec (FTy.bits .f32)) = FKind.add.neutral .f32 hφ) (p : Fin a) :
    multiReduction .add [1] (⟨1, ![a]⟩ : Shape) x0 0x00000000#32 h hφ hacc (ix1 p)
      = ∑ k : Fin b, x0 (ix2 p k) := by
  refine (Ideal.multiReduction_add_single x0 _ h hφ hacc (ix1 p)).trans ?_
  exact Finset.sum_congr rfl fun k _ => congrArg x0 (lift_row h p k)

/-- An entry minus its row's entry of a column vector spread across the columns. -/
theorem sub_column_apply {a b : ℕ} (x0 : FVec Ideal (⟨2, ![a, b]⟩ : Shape) .f32) (M : FVec Ideal (⟨1, ![a]⟩ : Shape) .f32)
    (hsc : (⟨1, ![a]⟩ : Shape).ShapeCasts ⟨2, ![a, 1]⟩) (hbc : (⟨2, ![a, 1]⟩ : Shape).Broadcasts ⟨2, ![a, b]⟩)
    (p : Fin a) (q : Fin b) :
    subf x0 (broadcastTo ⟨2, ![a, b]⟩ (shapeCast ⟨2, ![a, 1]⟩ M hsc) hbc) (ix2 p q) = x0 (ix2 p q) - M (ix1 p) := by
  show x0 (ix2 p q) - broadcastTo ⟨2, ![a, b]⟩ (shapeCast ⟨2, ![a, 1]⟩ M hsc) hbc (ix2 p q) = _
  rw [broadcastTo_a1_ab_apply, shapeCast_a_a1_apply]

/-- The same with the column vector's logarithm taken in its column layout. -/
theorem sub_logColumn_apply {a b : ℕ} (x0 : FVec Ideal (⟨2, ![a, b]⟩ : Shape) .f32) (T : FVec Ideal (⟨1, ![a]⟩ : Shape) .f32)
    (hsc : (⟨1, ![a]⟩ : Shape).ShapeCasts ⟨2, ![a, 1]⟩) (hbc : (⟨2, ![a, 1]⟩ : Shape).Broadcasts ⟨2, ![a, b]⟩)
    (p : Fin a) (q : Fin b) :
    subf x0 (broadcastTo ⟨2, ![a, b]⟩ (log (shapeCast ⟨2, ![a, 1]⟩ T hsc)) hbc) (ix2 p q)
      = x0 (ix2 p q) - Ideal.log (T (ix1 p)) := by
  show x0 (ix2 p q) - broadcastTo ⟨2, ![a, b]⟩ (log (shapeCast ⟨2, ![a, 1]⟩ T hsc)) hbc (ix2 p q) = _
  rw [broadcastTo_a1_ab_apply]
  show _ - Ideal.log (shapeCast ⟨2, ![a, 1]⟩ T hsc (ix2 p (0 : Fin 1))) = _
  rw [shapeCast_a_a1_apply]

/-- The lane sum of the exponentials of the shifted block, at row `p`. -/
theorem expSum_apply {a b : ℕ} (x0 : FVec Ideal (⟨2, ![a, b]⟩ : Shape) .f32) (M : FVec Ideal (⟨1, ![a]⟩ : Shape) .f32)
    (hsc : (⟨1, ![a]⟩ : Shape).ShapeCasts ⟨2, ![a, 1]⟩) (hbc : (⟨2, ![a, 1]⟩ : Shape).Broadcasts ⟨2, ![a, b]⟩)
    (h : (⟨2, ![a, b]⟩ : Shape).Reduces [1] (⟨1, ![a]⟩ : Shape)) (hφ : FKind.Formats .f32)
    (hacc : (0x00000000#32 : BitVec (FTy.bits .f32)) = FKind.add.neutral .f32 hφ) (p : Fin a) (m : EReal)
    (hM : M (ix1 p) = m) :
    multiReduction .add [1] (⟨1, ![a]⟩ : Shape)
        (exp (subf x0 (broadcastTo ⟨2, ![a, b]⟩ (shapeCast ⟨2, ![a, 1]⟩ M hsc) hbc))) 0x00000000#32 h hφ hacc (ix1 p)
      = ∑ k : Fin b, Ideal.exp (x0 (ix2 p k) - m) := by
  refine (laneSum_apply _ h hφ hacc p).trans ?_
  refine Finset.sum_congr rfl fun k _ => ?_
  show Ideal.exp (subf x0 (broadcastTo ⟨2, ![a, b]⟩ (shapeCast ⟨2, ![a, 1]⟩ M hsc) hbc) (ix2 p k)) = _
  rw [sub_column_apply, hM]

/-- The body's stored value at `(p, q)` is the log-softmax of row `p` of the loaded block at column `q`. -/
theorem pay_apply (x0 : Vec Ideal Cert.KernelIdeal.S2000x47 .f32) (p : Fin 2000) (q : Fin 47) :
    Cert.KernelIdeal.Gen.k3_pay1 (F := Ideal) x0 (ix2 p q) = rowLogSoftmax (fun k => x0 (ix2 p k)) q := by
  unfold Cert.KernelIdeal.Gen.k3_pay1
  simp only [shapeCast_self]
  have hM := laneMax_apply (a := 2000) (b := 47) x0 Cert.KernelIdeal.Gen.reduces_S2000x47_S2000 (.inl rfl) rfl p
  refine (sub_logColumn_apply _ _ _ _ p q).trans ?_
  refine congrArg₂ (· - ·) ((sub_column_apply x0 _ _ _ p q).trans (congrArg (x0 (ix2 p q) - ·) hM)) (congrArg Ideal.log ?_)
  exact expSum_apply x0 _ _ _ _ _ _ p _ hM

/-! ## The reference's chain -/

/-- The maximum against -inf changes nothing. -/
theorem max_negInf (y : EReal) : max (Ideal.ofBits .f32 0xFF800000#32) y = y := by
  simp [Ideal.ofBits, Ideal.ieee]

/-- A vector laid out as a column and then spread across `b` columns reads, at `(r, q)`, its entry `r`. -/
theorem column_spread_apply {α : Type} {a b : ℕ} (v : (⟨1, ![a]⟩ : Shape).Idx → α)
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2)) (r : Fin a) (q : Fin b) :
    broadcastInDim ⟨2, ![a, b]⟩ ![0, 1] h2 (broadcastInDim ⟨2, ![a, 1]⟩ ![0] h1 v) (ix2 r q) = v (ix1 r) := by
  refine (broadcastInDim_apply _ h2 _ (ix2 r q) (ix2 r (0 : Fin 1)) fun ax => ?_).trans
    (broadcastInDim_apply _ h1 v (ix2 r (0 : Fin 1)) (ix1 r) fun ax => ?_)
  · match ax with
    | ⟨0, _⟩ =>
      show r.val = if a = 1 then 0 else r.val
      split
      · have := r.isLt; omega
      · rfl
    | ⟨1, _⟩ => rfl
  · match ax with
    | ⟨0, _⟩ =>
      show r.val = if a = 1 then 0 else r.val
      split
      · have := r.isLt; omega
      · rfl

/-- The same with the logarithm taken in the column layout. -/
theorem column_log_spread_apply {a b : ℕ} (v : FVec Ideal (⟨1, ![a]⟩ : Shape) .f32)
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2)) (r : Fin a) (q : Fin b) :
    broadcastInDim ⟨2, ![a, b]⟩ ![0, 1] h2 (Host.log (broadcastInDim ⟨2, ![a, 1]⟩ ![0] h1 v)) (ix2 r q)
      = Ideal.log (v (ix1 r)) := by
  refine (broadcastInDim_apply _ h2 _ (ix2 r q) (ix2 r (0 : Fin 1)) fun ax => ?_).trans ?_
  · match ax with
    | ⟨0, _⟩ =>
      show r.val = if a = 1 then 0 else r.val
      split
      · have := r.isLt; omega
      · rfl
    | ⟨1, _⟩ => rfl
  · show Ideal.log (broadcastInDim ⟨2, ![a, 1]⟩ ![0] h1 v (ix2 r (0 : Fin 1))) = _
    refine congrArg Ideal.log (broadcastInDim_apply _ h1 v (ix2 r (0 : Fin 1)) (ix1 r) fun ax => ?_)
    match ax with
    | ⟨0, _⟩ =>
      show r.val = if a = 1 then 0 else r.val
      split
      · have := r.isLt; omega
      · rfl

/-- The host's maximum over the columns from -inf, taken once more against a row of -inf, at row `r`. -/
theorem hostRowMax_apply {a b : ℕ} (x : FVec Ideal (⟨2, ![a, b]⟩ : Shape) .f32)
    (h' : (⟨2, ![a, b]⟩ : Shape).ReducesTo [1] (⟨1, ![a]⟩ : Shape)) (h : (⟨2, ![a, b]⟩ : Shape).Reduces [1] (⟨1, ![a]⟩ : Shape))
    (hu : 0 < (⟨0, ![]⟩ : Shape).numel) (hb : (⟨0, ![]⟩ : Shape).BroadcastsInDim ⟨1, ![a]⟩ (![] : Fin 0 → Fin 1)) (r : Fin a) :
    maximumf (broadcastInDim ⟨1, ![a]⟩ ![] hb (constant (F := Ideal) ⟨0, ![]⟩ .f32 0xFF800000#32))
        (Host.reduce FloatOps.maximumf x (constant (F := Ideal) ⟨0, ![]⟩ .f32 0xFF800000#32) h' hu) (ix1 r)
      = rowTop (fun k : Fin b => x (ix2 r k)) := by
  show max (broadcastInDim ⟨1, ![a]⟩ ![] hb (constant (F := Ideal) ⟨0, ![]⟩ .f32 0xFF800000#32) (ix1 r))
      (Host.reduce FloatOps.maximumf x (constant (F := Ideal) ⟨0, ![]⟩ .f32 0xFF800000#32) h' hu (ix1 r)) = _
  rw [broadcastInDim_apply _ hb _ (ix1 r) ix0 (fun ax => ax.elim0), Host.reduce_eq_fold_single FloatOps.maximumf x _ h' h hu]
  show max (Ideal.ofBits .f32 0xFF800000#32) (Finset.fold max (Ideal.ofBits .f32 0xFF800000#32) (x ∘ h.lift (ix1 r)) Finset.univ) = _
  rw [max_negInf]
  have hf : (x ∘ h.lift (ix1 r)) = fun k : Fin b => x (ix2 r k) := funext fun k => congrArg x (lift_row h r k)
  exact congrArg (fun f => Finset.fold max (Ideal.ofBits .f32 0xFF800000#32) f (Finset.univ : Finset (Fin b))) hf

/-- The host's sum over the columns, from zero, of the exponentials, at row `r`. -/
theorem hostExpSum_apply {a b : ℕ} (s : FVec Ideal (⟨2, ![a, b]⟩ : Shape) .f32)
    (h' : (⟨2, ![a, b]⟩ : Shape).ReducesTo [1] (⟨1, ![a]⟩ : Shape)) (h : (⟨2, ![a, b]⟩ : Shape).Reduces [1] (⟨1, ![a]⟩ : Shape))
    (hu : 0 < (⟨0, ![]⟩ : Shape).numel) (r : Fin a) :
    Host.reduceAdd (Host.exp s) (constant (F := Ideal) ⟨0, ![]⟩ .f32 0x00000000#32) h' hu (ix1 r)
      = ∑ k : Fin b, Ideal.exp (s (ix2 r k)) := by
  simp only [Host.reduceAdd, Ideal.hostReduceAdd_def]
  rw [Ideal.hostReduceAdd_single h' h]
  show Ideal.ofBits .f32 0x00000000#32 + _ = _
  rw [Ideal.ofBits_zero_f32, zero_add]
  exact Finset.sum_congr rfl fun k _ => congrArg (fun i => Ideal.exp (s i)) (lift_row h r k)

/-- The reference's row maximum at row `r`. -/
theorem rowMax_apply (x : FVec Ideal Cert.ReferenceIdeal.S100000x47 .f32) (r : Fin 100000) :
    rowMax (F := Ideal) x (ix1 r) = rowTop (fun k => x (ix2 r k)) := by
  unfold rowMax
  exact hostRowMax_apply x _ (by decide) _ _ r

/-- The reference's shifted entry. -/
theorem shifted_apply (x : FVec Ideal Cert.ReferenceIdeal.S100000x47 .f32) (r : Fin 100000) (q : Fin 47) :
    shifted (F := Ideal) x (ix2 r q) = x (ix2 r q) - rowTop (fun k => x (ix2 r k)) := by
  unfold shifted
  exact congrArg (x (ix2 r q) - ·) ((column_spread_apply _ _ _ r q).trans (rowMax_apply x r))

/-- The reference's chain at `(r, q)` is the log-softmax of row `r` at column `q`. -/
theorem logSoftmaxRows_apply (x : FVec Ideal Cert.ReferenceIdeal.S100000x47 .f32) (r : Fin 100000) (q : Fin 47) :
    logSoftmaxRows (F := Ideal) x (ix2 r q) = rowLogSoftmax (fun k => x (ix2 r k)) q := by
  unfold logSoftmaxRows rowLogSoftmax
  refine congrArg₂ (· - ·) (shifted_apply x r q) ((column_log_spread_apply _ _ _ r q).trans (congrArg Ideal.log ?_))
  refine (hostExpSum_apply (shifted x) _ (by decide) _ r).trans ?_
  exact Finset.sum_congr rfl fun k _ => congrArg Ideal.exp (shifted_apply x r k)

/-! ## From the blocks to the array -/

section Blocks

open Idealize.ShloMosaic.TcCoe Idealize.SL.Sem
open Idealize.ShloMosaic.Pipeline (Dat)

variable (V : (c : Dev Cert.KernelIdeal.nD) → (b : Ref Cert.KernelIdeal.sig .tc) →
  Buf (Elt Ideal) ((c : Thread Cert.KernelIdeal.nD Cert.KernelIdeal.τ).loc b))

theorem zero_offsets : (![0, 0] : Fin 2 → Nat) = fun _ => 0 := funext fun a => by fin_cases a <;> rfl

/-- The index maps over the grid: point `t` reads and writes row block `t`, every column. -/
theorem block_index : ∀ t : Fin Cert.KernelIdeal.cfg3.N,
    Cert.KernelIdeal.win3_0.index t (0 : Fin 2) = t.val ∧ Cert.KernelIdeal.win3_0.index t (1 : Fin 2) = 0
    ∧ Cert.KernelIdeal.win3_1.index t (0 : Fin 2) = t.val ∧ Cert.KernelIdeal.win3_1.index t (1 : Fin 2) = 0 :=
  (by decide +kernel : ∀ t : Fin Cert.KernelIdeal.grid3.N, _)

/-- Row `p` of the input block at point `t` is row `2000 t + p` of the input array. -/
theorem iblk_apply (c : Dev Cert.KernelIdeal.nD) (t : Fin Cert.KernelIdeal.cfg3.N) (p : Fin 2000) (k : Fin 47)
    (r : Fin 100000) (hr : r.val = t.val * 2000 + p.val) :
    (Cert.KernelIdeal.Gen.iblk3 (F := Ideal) V c 0 t : Vec Ideal Cert.KernelIdeal.S2000x47 .f32) (ix2 p k)
      = (V c Cert.KernelIdeal.main_v84 : Cert.KernelIdeal.S100000x47.Idx → EReal) (ix2 r k) := by
  obtain ⟨e0, e1, -, -⟩ := block_index t
  unfold Cert.KernelIdeal.Gen.iblk3
  rw [View.read_apply]
  show V c Cert.KernelIdeal.main_v84 _ = V c Cert.KernelIdeal.main_v84 _
  congr 1
  funext a
  apply Fin.ext
  match a with
  | ⟨0, _⟩ => show Cert.KernelIdeal.win3_0.index t (0 : Fin 2) * 2000 + 1 * p.val = r.val; rw [e0, hr]; omega
  | ⟨1, _⟩ => show Cert.KernelIdeal.win3_0.index t (1 : Fin 2) * 47 + 1 * k.val = k.val; rw [e1]; omega

end Blocks

section Array

open Idealize.ShloMosaic.TcCoe Idealize.SL.Sem
open Idealize.ShloMosaic.Pipeline (Dat)

variable (V : (c : Dev Cert.KernelIdeal.nD) → (b : Ref Cert.KernelIdeal.sig .tc) →
  Buf (Elt Ideal) ((c : Thread Cert.KernelIdeal.nD Cert.KernelIdeal.τ).loc b))

/-- What point `t` writes back is block `t` of the row-wise log-softmax of the input array. -/
theorem flushed_eq (c : Dev Cert.KernelIdeal.nD) (t : Fin Cert.KernelIdeal.cfg3.N) :
    (Cert.KernelIdeal.Gen.dat3 (F := Ideal) V c).flushed 1 t
      = ((Cert.KernelIdeal.cfg3.win 1).blk t).view.read (Elt Ideal)
          (logSoftmaxRows (F := Ideal) (V c Cert.KernelIdeal.main_v84)) := by
  show (Cert.KernelIdeal.cfg3.win 1).cut (Cert.KernelIdeal.grid3.coords t) ((Cert.KernelIdeal.Gen.dat3 V c).after 1 t) = _
  rw [Cert.KernelIdeal.Gen.after3_1]
  unfold Cert.KernelIdeal.Gen.out3_1
  rw [View.canon_unit_zero zero_offsets]
  simp only [View.ld_unit_zero (S := Cert.KernelIdeal.S2000x47) zero_offsets]
  obtain ⟨-, -, e2, e3⟩ := block_index t
  have ht : t.val < 50 := Nat.lt_of_lt_of_eq t.isLt Cert.KernelIdeal.Gen.N_3
  funext j
  obtain ⟨p, q, rfl⟩ : ∃ (p : Fin 2000) (q : Fin 47), j = ix2 p q := ⟨j 0, j 1, eq_ix2 j⟩
  have hx : (Cert.KernelIdeal.cfg3.win 1).xinj (Cert.KernelIdeal.grid3.coords t) (ix2 p q) = ix2 p q :=
    funext fun a => Fin.ext (by match a with | ⟨0, _⟩ => rfl | ⟨1, _⟩ => rfl)
  have hemb : ((Cert.KernelIdeal.cfg3.win 1).blk t).view.emb (ix2 p q)
      = (ix2 (⟨t.val * 2000 + p.val, by have := p.isLt; omega⟩ : Fin 100000) q : Cert.KernelIdeal.S100000x47.Idx) := by
    funext a
    apply Fin.ext
    match a with
    | ⟨0, _⟩ => show Cert.KernelIdeal.win3_1.index t (0 : Fin 2) * 2000 + 1 * p.val = t.val * 2000 + p.val; rw [e2]; omega
    | ⟨1, _⟩ => show Cert.KernelIdeal.win3_1.index t (1 : Fin 2) * 47 + 1 * q.val = q.val; rw [e3]; omega
  show Cert.KernelIdeal.Gen.k3_pay1 (Cert.KernelIdeal.Gen.iblk3 V c 0 t)
      ((Cert.KernelIdeal.cfg3.win 1).xinj (Cert.KernelIdeal.grid3.coords t) (ix2 p q))
    = logSoftmaxRows (F := Ideal) (V c Cert.KernelIdeal.main_v84) (((Cert.KernelIdeal.cfg3.win 1).blk t).view.emb (ix2 p q))
  rw [hx, hemb]
  refine (pay_apply (Cert.KernelIdeal.Gen.iblk3 V c 0 t) p q).trans ((congrArg (fun row => rowLogSoftmax row q) (funext fun k => ?_)).trans
    (logSoftmaxRows_apply (V c Cert.KernelIdeal.main_v84) _ q).symm)
  exact iblk_apply V c t p k _ rfl

end Array

section Final

open Idealize.ShloMosaic.TcCoe Idealize.SL.Sem
open Idealize.ShloMosaic.Pipeline (Dat)

variable (V : (c : Dev Cert.KernelIdeal.nD) → (b : Ref Cert.KernelIdeal.sig .tc) →
  Buf (Elt Ideal) ((c : Thread Cert.KernelIdeal.nD Cert.KernelIdeal.τ).loc b))

/-- An entry of the result array lies in point `t`'s block iff each coordinate lies in the block's range on its axis. -/
theorem mem_blk (t : Fin Cert.KernelIdeal.cfg3.N) (i : Cert.KernelIdeal.S100000x47.Idx) :
    i ∈ ((Cert.KernelIdeal.cfg3.win 1).blk t).view.set ↔ ∀ a : Fin 2,
      Cert.KernelIdeal.win3_1.index t a * Cert.KernelIdeal.S2000x47.size a ≤ (i a).val
      ∧ (i a).val < Cert.KernelIdeal.win3_1.index t a * Cert.KernelIdeal.S2000x47.size a + Cert.KernelIdeal.S2000x47.size a := by
  show i ∈ ((View.whole Cert.KernelIdeal.main_v85).slice (Cert.KernelIdeal.win3_1.rect t)).set ↔ _
  rw [View.set_slice_whole, Rect.mem_set_unit]
  exact Iff.rfl

/-- Every entry of the result array lies in the block of the point its row's block names: row `r` in point `r / 2000`. -/
theorem covered (i : Cert.KernelIdeal.S100000x47.Idx) :
    ∃ t : Fin Cert.KernelIdeal.cfg3.N, (Cert.KernelIdeal.cfg3.win 1).flush t = true
      ∧ i ∈ ((Cert.KernelIdeal.cfg3.win 1).blk t).view.set := by
  have hi0 : (i 0).val < 100000 := (i 0).isLt
  have hi1 : (i 1).val < 47 := (i 1).isLt
  obtain ⟨t, ht⟩ : ∃ t : Fin Cert.KernelIdeal.cfg3.N, t.val = (i 0).val / 2000 :=
    ⟨⟨(i 0).val / 2000, by rw [show Cert.KernelIdeal.cfg3.N = 50 from Cert.KernelIdeal.Gen.N_3]; omega⟩, rfl⟩
  obtain ⟨-, -, e2, e3⟩ := block_index t
  refine ⟨t, Cert.KernelIdeal.Gen.flush3_1 t, ?_⟩
  rw [mem_blk]
  intro a
  match a with
  | ⟨0, _⟩ =>
    show Cert.KernelIdeal.win3_1.index t (0 : Fin 2) * 2000 ≤ (i 0).val
      ∧ (i 0).val < Cert.KernelIdeal.win3_1.index t (0 : Fin 2) * 2000 + 2000
    rw [e2, ht]; omega
  | ⟨1, _⟩ =>
    show Cert.KernelIdeal.win3_1.index t (1 : Fin 2) * 47 ≤ (i 1).val
      ∧ (i 1).val < Cert.KernelIdeal.win3_1.index t (1 : Fin 2) * 47 + 47
    rw [e3]; omega

end Final

end LogSoftmaxRegion

section Result

open Idealize.ShloMosaic.TcCoe Idealize.SL.Sem
open Idealize.ShloMosaic.Pipeline (Dat)

/-- The result array after the log-softmax region is the reference's row-wise log-softmax chain of the region's input
    array: every point writes back its block of that one function, and the blocks cover the array. -/
theorem logSoftmax3
    (V : (c : Dev Cert.KernelIdeal.nD) → (b : Ref Cert.KernelIdeal.sig .tc) →
      Buf (Elt Ideal) ((c : Thread Cert.KernelIdeal.nD Cert.KernelIdeal.τ).loc b))
    (c : Dev Cert.KernelIdeal.nD) :
    (Cert.KernelIdeal.Gen.dat3 (F := Ideal) V c).arrAt 1 Cert.KernelIdeal.cfg3.N
      = logSoftmaxRows (F := Ideal) (V c Cert.KernelIdeal.main_v84) :=
  (Cert.KernelIdeal.Gen.dat3 (F := Ideal) V c).arrAt_eq_of_cover 1 (logSoftmaxRows (F := Ideal) (V c Cert.KernelIdeal.main_v84))
    (fun t _ => LogSoftmaxRegion.flushed_eq V c t) LogSoftmaxRegion.covered

end Result

end Cert.Bridge

end
-- ==== Proof.KChain.lean ====
/-
  The idealized kernel's result buffer holds the model's value of the arguments.

  The program's run passes twelve boundaries: the launch memory, the contents after each stretch of host operations, and
  the contents after each of the four pipelined regions. A host stretch's result at a buffer is the stretch's operations
  applied to what the buffers it reads held before it; a region's result array is what its grid points wrote back, and
  every buffer that is not one of its arrays is carried over it unchanged. Walking the boundaries:

    * at the first region's entry the edge list's source and destination arrays and the edge norm are their named
      functions of the edge-list argument, and every argument is as launched;
    * each of the three dense regions leaves the host's product of its two input arrays (a product's row depends on that
      row of the left operand only, so the 2000-row blocks tile the whole product);
    * the host stretch after a dense region gathers, scales, adds into destination rows, adds the bias and (layers one
      and two) clamps at zero: the named aggregation of the product's array, the edge arrays and the bias;
    * the last region leaves the row-wise log-softmax of its input array.

  The stretches are read for ANY float type, where their terms meet the named functions syntactically; only the regions'
  arrays need the extended reals, and there the facts are composed, nothing is unfolded.
-/
import proofs.«151773_j14405320311195_1_alg».proof.Proof.Gen.KernelIdeal.Frame
import proofs.«151773_j14405320311195_1_alg».proof.Proof.SpecHost
import proofs.«151773_j14405320311195_1_alg».proof.Proof.LibTypedRef
import proofs.«151773_j14405320311195_1_alg».proof.Proof.RegionLinear
import proofs.«151773_j14405320311195_1_alg».proof.Proof.RegionLogSoftmax

set_option maxRecDepth 16384
set_option Elab.async false

noncomputable section

namespace Cert.Bridge.Chain

open Cert.KernelIdeal Cert.KernelIdeal.Gen Idealize.ShloMosaic Idealize.ShloMosaic.TcCoe Idealize.SL.Sem Idealize.ShloMosaic.StableHlo

/-! ## The two programs' records of one scatter or gather are one record -/

theorem rec0_eq : Cert.KernelIdeal.scatter_S100000_S1700000x1_S1700000_n_0_0_1 = Cert.ReferenceIdeal.scatter_S100000_S1700000x1_S1700000_n_0_0_1 := rfl
theorem rec1_eq : Cert.KernelIdeal.gather_S100000_S1700000x1_S1700000_n_0_n_n_0_1_1 = Cert.ReferenceIdeal.gather_S100000_S1700000x1_S1700000_n_0_n_n_0_1_1 := rfl
theorem rec2_eq : Cert.KernelIdeal.gather_S100000x128_S1700000x1_S1700000x128_1_0_n_n_0_1_1128 = Cert.ReferenceIdeal.gather_S100000x128_S1700000x1_S1700000x128_1_0_n_n_0_1_1128 := rfl
theorem rec3_eq : Cert.KernelIdeal.scatter_S100000x128_S1700000x1_S1700000x128_1_0_0_1 = Cert.ReferenceIdeal.scatter_S100000x128_S1700000x1_S1700000x128_1_0_0_1 := rfl
theorem rec4_eq : Cert.KernelIdeal.gather_S100000x47_S1700000x1_S1700000x47_1_0_n_n_0_1_147 = Cert.ReferenceIdeal.gather_S100000x47_S1700000x1_S1700000x47_1_0_n_n_0_1_147 := rfl
theorem rec5_eq : Cert.KernelIdeal.scatter_S100000x47_S1700000x1_S1700000x47_1_0_0_1 = Cert.ReferenceIdeal.scatter_S100000x47_S1700000x1_S1700000x47_1_0_0_1 := rfl

section AnyFloats

variable {F : FTy → Type} [FloatOps F]
variable (m : (ℓ : Loc nD τ sig) → Buf (Elt F) ℓ) (ρ : Dev nD → PrngReg) (c : Dev nD)

/-! ## At the first region's entry: sources, destinations, the edge norm, the arguments -/

/-- The sources. -/
theorem e0_src : W3 m ρ c (Proc.devRef .tc main_v3) = (Cert.Bridge.srcIdx (F := F) (m ((c : Thread nD τ).loc main_arg1))) := by
  dsimp only [W3, W2, W1, hostOps0, hostOps0_1, hostOps0_2]
  after_results_simp
  try simp only [rec0_eq, rec1_eq, rec2_eq, rec3_eq, rec4_eq, rec5_eq, Cert.TypedRef.ofBuf_toBuf, Cert.TypedRef.toBuf_of, Cert.TypedRef.ofBuf_of]
  first | rfl | fail "e0_src: the two sides are not the same term"

/-- The destinations. -/
theorem e0_dst : W3 m ρ c (Proc.devRef .tc main_v6) = (Cert.Bridge.dstIdx (F := F) (m ((c : Thread nD τ).loc main_arg1))) := by
  dsimp only [W3, W2, W1, hostOps0, hostOps0_1, hostOps0_2]
  after_results_simp
  try simp only [rec0_eq, rec1_eq, rec2_eq, rec3_eq, rec4_eq, rec5_eq, Cert.TypedRef.ofBuf_toBuf, Cert.TypedRef.toBuf_of, Cert.TypedRef.ofBuf_of]
  first | rfl | fail "e0_dst: the two sides are not the same term"

/-- The edge norm: the selected inverse square roots of the in-degrees gathered at both ends and multiplied. -/
theorem e0_norm : W3 m ρ c (Proc.devRef .tc main_v31) = (Cert.Bridge.edgeNorm (F := F) (Cert.Bridge.srcIdx (F := F) (m ((c : Thread nD τ).loc main_arg1))) (Cert.Bridge.dstIdx (F := F) (m ((c : Thread nD τ).loc main_arg1)))) := by
  dsimp only [W3, W2, W1, hostOps0, hostOps0_1, hostOps0_2]
  after_results_simp
  try simp only [rec0_eq, rec1_eq, rec2_eq, rec3_eq, rec4_eq, rec5_eq, Cert.TypedRef.ofBuf_toBuf, Cert.TypedRef.toBuf_of, Cert.TypedRef.ofBuf_of]
  first | rfl | fail "e0_norm: the two sides are not the same term"

/-- Argument 0 is untouched. -/
theorem e0_arg0 : W3 m ρ c (Proc.devRef .tc main_arg0) = (m ((c : Thread nD τ).loc main_arg0)) := by
  dsimp only [W3, W2, W1, hostOps0, hostOps0_1, hostOps0_2]
  after_results_simp <;> rfl

/-- Argument 2 is untouched. -/
theorem e0_arg2 : W3 m ρ c (Proc.devRef .tc main_arg2) = (m ((c : Thread nD τ).loc main_arg2)) := by
  dsimp only [W3, W2, W1, hostOps0, hostOps0_1, hostOps0_2]
  after_results_simp <;> rfl

/-- Argument 3 is untouched. -/
theorem e0_arg3 : W3 m ρ c (Proc.devRef .tc main_arg3) = (m ((c : Thread nD τ).loc main_arg3)) := by
  dsimp only [W3, W2, W1, hostOps0, hostOps0_1, hostOps0_2]
  after_results_simp <;> rfl

/-- Argument 4 is untouched. -/
theorem e0_arg4 : W3 m ρ c (Proc.devRef .tc main_arg4) = (m ((c : Thread nD τ).loc main_arg4)) := by
  dsimp only [W3, W2, W1, hostOps0, hostOps0_1, hostOps0_2]
  after_results_simp <;> rfl

/-- Argument 5 is untouched. -/
theorem e0_arg5 : W3 m ρ c (Proc.devRef .tc main_arg5) = (m ((c : Thread nD τ).loc main_arg5)) := by
  dsimp only [W3, W2, W1, hostOps0, hostOps0_1, hostOps0_2]
  after_results_simp <;> rfl

/-- Argument 6 is untouched. -/
theorem e0_arg6 : W3 m ρ c (Proc.devRef .tc main_arg6) = (m ((c : Thread nD τ).loc main_arg6)) := by
  dsimp only [W3, W2, W1, hostOps0, hostOps0_1, hostOps0_2]
  after_results_simp <;> rfl

/-- Argument 7 is untouched. -/
theorem e0_arg7 : W3 m ρ c (Proc.devRef .tc main_arg7) = (m ((c : Thread nD τ).loc main_arg7)) := by
  dsimp only [W3, W2, W1, hostOps0, hostOps0_1, hostOps0_2]
  after_results_simp <;> rfl

/-! ## Carried over the first region -/

theorem x0_src : W4 m ρ c (Proc.devRef .tc main_v3) = (Cert.Bridge.srcIdx (F := F) (m ((c : Thread nD τ).loc main_arg1))) :=
  (W4_of_ne m ρ c main_v3 (by decide)).trans (e0_src m ρ c)

theorem x0_dst : W4 m ρ c (Proc.devRef .tc main_v6) = (Cert.Bridge.dstIdx (F := F) (m ((c : Thread nD τ).loc main_arg1))) :=
  (W4_of_ne m ρ c main_v6 (by decide)).trans (e0_dst m ρ c)

theorem x0_norm : W4 m ρ c (Proc.devRef .tc main_v31) = (Cert.Bridge.edgeNorm (F := F) (Cert.Bridge.srcIdx (F := F) (m ((c : Thread nD τ).loc main_arg1))) (Cert.Bridge.dstIdx (F := F) (m ((c : Thread nD τ).loc main_arg1)))) :=
  (W4_of_ne m ρ c main_v31 (by decide)).trans (e0_norm m ρ c)

theorem x0_arg3 : W4 m ρ c (Proc.devRef .tc main_arg3) = (m ((c : Thread nD τ).loc main_arg3)) :=
  (W4_of_ne m ρ c main_arg3 (by decide)).trans (e0_arg3 m ρ c)

theorem x0_arg4 : W4 m ρ c (Proc.devRef .tc main_arg4) = (m ((c : Thread nD τ).loc main_arg4)) :=
  (W4_of_ne m ρ c main_arg4 (by decide)).trans (e0_arg4 m ρ c)

theorem x0_arg5 : W4 m ρ c (Proc.devRef .tc main_arg5) = (m ((c : Thread nD τ).loc main_arg5)) :=
  (W4_of_ne m ρ c main_arg5 (by decide)).trans (e0_arg5 m ρ c)

theorem x0_arg6 : W4 m ρ c (Proc.devRef .tc main_arg6) = (m ((c : Thread nD τ).loc main_arg6)) :=
  (W4_of_ne m ρ c main_arg6 (by decide)).trans (e0_arg6 m ρ c)

theorem x0_arg7 : W4 m ρ c (Proc.devRef .tc main_arg7) = (m ((c : Thread nD τ).loc main_arg7)) :=
  (W4_of_ne m ρ c main_arg7 (by decide)).trans (e0_arg7 m ρ c)

/-! ## The first layer's host stretch -/

/-- From the first product's array, the edge arrays and the first bias: aggregated, biased, clamped at zero. -/
theorem layer1 {h : (⟨S100000x128, .f32⟩ : BufTy).Contents (Elt F)} {s d : (⟨S1700000, .i32⟩ : BufTy).Contents (Elt F)} {n : (⟨S1700000, .f32⟩ : BufTy).Contents (Elt F)} {b : (⟨S128, .f32⟩ : BufTy).Contents (Elt F)}
    (hh : W4 m ρ c (Proc.devRef .tc main_v32) = h) (hs : W4 m ρ c (Proc.devRef .tc main_v3) = s) (hd : W4 m ρ c (Proc.devRef .tc main_v6) = d)
    (hn : W4 m ρ c (Proc.devRef .tc main_v31) = n) (hb : W4 m ρ c (Proc.devRef .tc main_arg3) = b) :
    W6 m ρ c (Proc.devRef .tc main_v49) = Cert.Bridge.clampZero128 (F := F) (Cert.Bridge.aggregate128 (F := F) h s d n b) := by
  dsimp only [W6, W5, hostOps1, hostOps1_1]
  after_results_simp
  rw [hh, hs, hd, hn, hb]
  try simp only [rec0_eq, rec1_eq, rec2_eq, rec3_eq, rec4_eq, rec5_eq, Cert.TypedRef.ofBuf_toBuf, Cert.TypedRef.toBuf_of, Cert.TypedRef.ofBuf_of]
  first | rfl | fail "layer1: the two sides are not the same term"

theorem l1_keeps_main_v3 : W6 m ρ c (Proc.devRef .tc main_v3) = W4 m ρ c (Proc.devRef .tc main_v3) := by
  dsimp only [W6, W5, hostOps1, hostOps1_1]
  after_results_simp

theorem l1_keeps_main_v6 : W6 m ρ c (Proc.devRef .tc main_v6) = W4 m ρ c (Proc.devRef .tc main_v6) := by
  dsimp only [W6, W5, hostOps1, hostOps1_1]
  after_results_simp

theorem l1_keeps_main_v31 : W6 m ρ c (Proc.devRef .tc main_v31) = W4 m ρ c (Proc.devRef .tc main_v31) := by
  dsimp only [W6, W5, hostOps1, hostOps1_1]
  after_results_simp

theorem l1_keeps_main_arg4 : W6 m ρ c (Proc.devRef .tc main_arg4) = W4 m ρ c (Proc.devRef .tc main_arg4) := by
  dsimp only [W6, W5, hostOps1, hostOps1_1]
  after_results_simp

theorem l1_keeps_main_arg5 : W6 m ρ c (Proc.devRef .tc main_arg5) = W4 m ρ c (Proc.devRef .tc main_arg5) := by
  dsimp only [W6, W5, hostOps1, hostOps1_1]
  after_results_simp

theorem l1_keeps_main_arg6 : W6 m ρ c (Proc.devRef .tc main_arg6) = W4 m ρ c (Proc.devRef .tc main_arg6) := by
  dsimp only [W6, W5, hostOps1, hostOps1_1]
  after_results_simp

theorem l1_keeps_main_arg7 : W6 m ρ c (Proc.devRef .tc main_arg7) = W4 m ρ c (Proc.devRef .tc main_arg7) := by
  dsimp only [W6, W5, hostOps1, hostOps1_1]
  after_results_simp

theorem e1_src : W6 m ρ c (Proc.devRef .tc main_v3) = (Cert.Bridge.srcIdx (F := F) (m ((c : Thread nD τ).loc main_arg1))) := (l1_keeps_main_v3 m ρ c).trans (x0_src m ρ c)

theorem e1_dst : W6 m ρ c (Proc.devRef .tc main_v6) = (Cert.Bridge.dstIdx (F := F) (m ((c : Thread nD τ).loc main_arg1))) := (l1_keeps_main_v6 m ρ c).trans (x0_dst m ρ c)

theorem e1_norm : W6 m ρ c (Proc.devRef .tc main_v31) = (Cert.Bridge.edgeNorm (F := F) (Cert.Bridge.srcIdx (F := F) (m ((c : Thread nD τ).loc main_arg1))) (Cert.Bridge.dstIdx (F := F) (m ((c : Thread nD τ).loc main_arg1)))) := (l1_keeps_main_v31 m ρ c).trans (x0_norm m ρ c)

theorem e1_arg4 : W6 m ρ c (Proc.devRef .tc main_arg4) = (m ((c : Thread nD τ).loc main_arg4)) := (l1_keeps_main_arg4 m ρ c).trans (x0_arg4 m ρ c)

theorem e1_arg5 : W6 m ρ c (Proc.devRef .tc main_arg5) = (m ((c : Thread nD τ).loc main_arg5)) := (l1_keeps_main_arg5 m ρ c).trans (x0_arg5 m ρ c)

theorem e1_arg6 : W6 m ρ c (Proc.devRef .tc main_arg6) = (m ((c : Thread nD τ).loc main_arg6)) := (l1_keeps_main_arg6 m ρ c).trans (x0_arg6 m ρ c)

theorem e1_arg7 : W6 m ρ c (Proc.devRef .tc main_arg7) = (m ((c : Thread nD τ).loc main_arg7)) := (l1_keeps_main_arg7 m ρ c).trans (x0_arg7 m ρ c)

/-! ## Carried over the second region -/

theorem x1_src : W7 m ρ c (Proc.devRef .tc main_v3) = (Cert.Bridge.srcIdx (F := F) (m ((c : Thread nD τ).loc main_arg1))) :=
  (W7_of_ne m ρ c main_v3 (by decide)).trans (e1_src m ρ c)

theorem x1_dst : W7 m ρ c (Proc.devRef .tc main_v6) = (Cert.Bridge.dstIdx (F := F) (m ((c : Thread nD τ).loc main_arg1))) :=
  (W7_of_ne m ρ c main_v6 (by decide)).trans (e1_dst m ρ c)

theorem x1_norm : W7 m ρ c (Proc.devRef .tc main_v31) = (Cert.Bridge.edgeNorm (F := F) (Cert.Bridge.srcIdx (F := F) (m ((c : Thread nD τ).loc main_arg1))) (Cert.Bridge.dstIdx (F := F) (m ((c : Thread nD τ).loc main_arg1)))) :=
  (W7_of_ne m ρ c main_v31 (by decide)).trans (e1_norm m ρ c)

theorem x1_arg5 : W7 m ρ c (Proc.devRef .tc main_arg5) = (m ((c : Thread nD τ).loc main_arg5)) :=
  (W7_of_ne m ρ c main_arg5 (by decide)).trans (e1_arg5 m ρ c)

theorem x1_arg6 : W7 m ρ c (Proc.devRef .tc main_arg6) = (m ((c : Thread nD τ).loc main_arg6)) :=
  (W7_of_ne m ρ c main_arg6 (by decide)).trans (e1_arg6 m ρ c)

theorem x1_arg7 : W7 m ρ c (Proc.devRef .tc main_arg7) = (m ((c : Thread nD τ).loc main_arg7)) :=
  (W7_of_ne m ρ c main_arg7 (by decide)).trans (e1_arg7 m ρ c)

/-! ## The second layer's host stretch -/

/-- From the second product's array, the edge arrays and the second bias: aggregated, biased, clamped at zero. -/
theorem layer2 {h : (⟨S100000x128, .f32⟩ : BufTy).Contents (Elt F)} {s d : (⟨S1700000, .i32⟩ : BufTy).Contents (Elt F)} {n : (⟨S1700000, .f32⟩ : BufTy).Contents (Elt F)} {b : (⟨S128, .f32⟩ : BufTy).Contents (Elt F)}
    (hh : W7 m ρ c (Proc.devRef .tc main_v50) = h) (hs : W7 m ρ c (Proc.devRef .tc main_v3) = s) (hd : W7 m ρ c (Proc.devRef .tc main_v6) = d)
    (hn : W7 m ρ c (Proc.devRef .tc main_v31) = n) (hb : W7 m ρ c (Proc.devRef .tc main_arg5) = b) :
    W9 m ρ c (Proc.devRef .tc main_v67) = Cert.Bridge.clampZero128 (F := F) (Cert.Bridge.aggregate128 (F := F) h s d n b) := by
  dsimp only [W9, W8, hostOps2, hostOps2_1]
  after_results_simp
  rw [hh, hs, hd, hn, hb]
  try simp only [rec0_eq, rec1_eq, rec2_eq, rec3_eq, rec4_eq, rec5_eq, Cert.TypedRef.ofBuf_toBuf, Cert.TypedRef.toBuf_of, Cert.TypedRef.ofBuf_of]
  first | rfl | fail "layer2: the two sides are not the same term"

theorem l2_keeps_main_v3 : W9 m ρ c (Proc.devRef .tc main_v3) = W7 m ρ c (Proc.devRef .tc main_v3) := by
  dsimp only [W9, W8, hostOps2, hostOps2_1]
  after_results_simp

theorem l2_keeps_main_v6 : W9 m ρ c (Proc.devRef .tc main_v6) = W7 m ρ c (Proc.devRef .tc main_v6) := by
  dsimp only [W9, W8, hostOps2, hostOps2_1]
  after_results_simp

theorem l2_keeps_main_v31 : W9 m ρ c (Proc.devRef .tc main_v31) = W7 m ρ c (Proc.devRef .tc main_v31) := by
  dsimp only [W9, W8, hostOps2, hostOps2_1]
  after_results_simp

theorem l2_keeps_main_arg6 : W9 m ρ c (Proc.devRef .tc main_arg6) = W7 m ρ c (Proc.devRef .tc main_arg6) := by
  dsimp only [W9, W8, hostOps2, hostOps2_1]
  after_results_simp

theorem l2_keeps_main_arg7 : W9 m ρ c (Proc.devRef .tc main_arg7) = W7 m ρ c (Proc.devRef .tc main_arg7) := by
  dsimp only [W9, W8, hostOps2, hostOps2_1]
  after_results_simp

theorem e2_src : W9 m ρ c (Proc.devRef .tc main_v3) = (Cert.Bridge.srcIdx (F := F) (m ((c : Thread nD τ).loc main_arg1))) := (l2_keeps_main_v3 m ρ c).trans (x1_src m ρ c)

theorem e2_dst : W9 m ρ c (Proc.devRef .tc main_v6) = (Cert.Bridge.dstIdx (F := F) (m ((c : Thread nD τ).loc main_arg1))) := (l2_keeps_main_v6 m ρ c).trans (x1_dst m ρ c)

theorem e2_norm : W9 m ρ c (Proc.devRef .tc main_v31) = (Cert.Bridge.edgeNorm (F := F) (Cert.Bridge.srcIdx (F := F) (m ((c : Thread nD τ).loc main_arg1))) (Cert.Bridge.dstIdx (F := F) (m ((c : Thread nD τ).loc main_arg1)))) := (l2_keeps_main_v31 m ρ c).trans (x1_norm m ρ c)

theorem e2_arg6 : W9 m ρ c (Proc.devRef .tc main_arg6) = (m ((c : Thread nD τ).loc main_arg6)) := (l2_keeps_main_arg6 m ρ c).trans (x1_arg6 m ρ c)

theorem e2_arg7 : W9 m ρ c (Proc.devRef .tc main_arg7) = (m ((c : Thread nD τ).loc main_arg7)) := (l2_keeps_main_arg7 m ρ c).trans (x1_arg7 m ρ c)

/-! ## Carried over the third region -/

theorem x2_src : W10 m ρ c (Proc.devRef .tc main_v3) = (Cert.Bridge.srcIdx (F := F) (m ((c : Thread nD τ).loc main_arg1))) :=
  (W10_of_ne m ρ c main_v3 (by decide)).trans (e2_src m ρ c)

theorem x2_dst : W10 m ρ c (Proc.devRef .tc main_v6) = (Cert.Bridge.dstIdx (F := F) (m ((c : Thread nD τ).loc main_arg1))) :=
  (W10_of_ne m ρ c main_v6 (by decide)).trans (e2_dst m ρ c)

theorem x2_norm : W10 m ρ c (Proc.devRef .tc main_v31) = (Cert.Bridge.edgeNorm (F := F) (Cert.Bridge.srcIdx (F := F) (m ((c : Thread nD τ).loc main_arg1))) (Cert.Bridge.dstIdx (F := F) (m ((c : Thread nD τ).loc main_arg1)))) :=
  (W10_of_ne m ρ c main_v31 (by decide)).trans (e2_norm m ρ c)

theorem x2_arg7 : W10 m ρ c (Proc.devRef .tc main_arg7) = (m ((c : Thread nD τ).loc main_arg7)) :=
  (W10_of_ne m ρ c main_arg7 (by decide)).trans (e2_arg7 m ρ c)

/-! ## The third layer's host stretch -/

/-- From the third product's array, the edge arrays and the third bias: aggregated and biased. -/
theorem layer3 {h : (⟨S100000x47, .f32⟩ : BufTy).Contents (Elt F)} {s d : (⟨S1700000, .i32⟩ : BufTy).Contents (Elt F)} {n : (⟨S1700000, .f32⟩ : BufTy).Contents (Elt F)} {b : (⟨S47, .f32⟩ : BufTy).Contents (Elt F)}
    (hh : W10 m ρ c (Proc.devRef .tc main_v68) = h) (hs : W10 m ρ c (Proc.devRef .tc main_v3) = s) (hd : W10 m ρ c (Proc.devRef .tc main_v6) = d)
    (hn : W10 m ρ c (Proc.devRef .tc main_v31) = n) (hb : W10 m ρ c (Proc.devRef .tc main_arg7) = b) :
    W11 m ρ c (Proc.devRef .tc main_v84) = Cert.Bridge.aggregate47 (F := F) h s d n b := by
  dsimp only [W11, hostOps3]
  after_results_simp
  rw [hh, hs, hd, hn, hb]
  try simp only [rec0_eq, rec1_eq, rec2_eq, rec3_eq, rec4_eq, rec5_eq, Cert.TypedRef.ofBuf_toBuf, Cert.TypedRef.toBuf_of, Cert.TypedRef.ofBuf_of]
  first | rfl | fail "layer3: the two sides are not the same term"

end AnyFloats

section ExtendedReals

variable (m : (ℓ : Loc nD τ sig) → Buf (Elt Ideal) ℓ) (ρ : Dev nD → PrngReg) (c : Dev nD)

/-! ## On the extended reals: each region's array, and the layers between them -/

/-- The first region's result array is the dense product of the input features with the first weights. -/
theorem prod1 : W4 m ρ c (Proc.devRef .tc main_v32) = (Cert.Bridge.dense128 (F := Ideal) (m ((c : Thread nD τ).loc main_arg0)) (m ((c : Thread nD τ).loc main_arg2))) := by
  refine (W4_arr m ρ c 2).trans ((Cert.Bridge.linear0 (V3 m ρ) c).trans ?_)
  dsimp only [V3]
  rw [e0_arg0 m ρ c, e0_arg2 m ρ c]
  rfl

/-- The first hidden layer at the second region's entry. -/
theorem act1 : W6 m ρ c (Proc.devRef .tc main_v49) = (Cert.Bridge.hidden1 (F := Ideal) (m ((c : Thread nD τ).loc main_arg0)) (m ((c : Thread nD τ).loc main_arg1)) (m ((c : Thread nD τ).loc main_arg2)) (m ((c : Thread nD τ).loc main_arg3))) :=
  layer1 m ρ c (prod1 m ρ c) (x0_src m ρ c) (x0_dst m ρ c) (x0_norm m ρ c) (x0_arg3 m ρ c)

/-- The second region's result array is the dense product of the first hidden layer with the second weights. -/
theorem prod2 : W7 m ρ c (Proc.devRef .tc main_v50) = (Cert.Bridge.dense128 (F := Ideal) (Cert.Bridge.hidden1 (F := Ideal) (m ((c : Thread nD τ).loc main_arg0)) (m ((c : Thread nD τ).loc main_arg1)) (m ((c : Thread nD τ).loc main_arg2)) (m ((c : Thread nD τ).loc main_arg3))) (m ((c : Thread nD τ).loc main_arg4))) := by
  refine (W7_arr m ρ c 2).trans ((Cert.Bridge.linear1 (V6 m ρ) c).trans ?_)
  dsimp only [V6]
  rw [act1 m ρ c, e1_arg4 m ρ c]
  rfl

/-- The second hidden layer at the third region's entry. -/
theorem act2 : W9 m ρ c (Proc.devRef .tc main_v67) = (Cert.Bridge.hidden2 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) :=
  layer2 m ρ c (prod2 m ρ c) (x1_src m ρ c) (x1_dst m ρ c) (x1_norm m ρ c) (x1_arg5 m ρ c)

/-- The third region's result array is the dense product of the second hidden layer with the third weights. -/
theorem prod3 : W10 m ρ c (Proc.devRef .tc main_v68) = (Cert.Bridge.dense47 (F := Ideal) (Cert.Bridge.hidden2 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6))) := by
  refine (W10_arr m ρ c 2).trans ((Cert.Bridge.linear2 (V9 m ρ) c).trans ?_)
  dsimp only [V9]
  rw [act2 m ρ c, e2_arg6 m ρ c]
  rfl

/-- The output layer at the last region's entry. -/
theorem out3 : W11 m ρ c (Proc.devRef .tc main_v84) = (Cert.Bridge.logits (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) :=
  layer3 m ρ c (prod3 m ρ c) (x2_src m ρ c) (x2_dst m ρ c) (x2_norm m ρ c) (x2_arg7 m ρ c)

/-- The last region's result array is the row-wise log-softmax of the output layer: the model's value of the arguments. -/
theorem result : W12 m ρ c (Proc.devRef .tc main_v85) = (Cert.Bridge.model (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  refine (W12_arr m ρ c 1).trans ((Cert.Bridge.logSoftmax3 (V11 m ρ) c).trans ?_)
  dsimp only [V11]
  rw [out3 m ρ c]
  rfl

end ExtendedReals

end Cert.Bridge.Chain

end
-- ==== Proof.lean ====
/-
  The certificate of a three-layer graph convolution with a row-wise log-softmax, kernel against reference, on the
  extended reals.

  Both programs compute, from node features x, an edge list e and three layers' weights and biases,
      log_softmax( A(relu(A(relu(A(x W1) + b1) W2) + b2) W3) + b3 )
  where A gathers rows at the edges' sources, scales them by the symmetric degree normalisation, and adds them into the
  edges' destination rows. The two programs share every host operation of A, of the normalisation, of the bias and the
  clamp; they differ in the three dense products (the kernel multiplies 2000-row blocks into a zero accumulator after a
  change of float format, which is the identity on the extended reals; the reference takes one product of the whole
  arrays) and in the log-softmax (the kernel takes it 2000 rows at a time; the reference on the whole array, with one
  more maximum against -inf, which changes nothing). A dense product's row depends on that row of the left operand only
  and a log-softmax's row on that row only, so each blocked region writes exactly the whole-array operation's value;
  the programs are then the same composition of the same functions. No finiteness of the inputs is used.

  The frames of the kernel and its idealization are the generated ones; the reference's frame is its run with the result
  forgotten; the idealization rewrote nothing.
-/
import proofs.«151773_j14405320311195_1_alg».proof.Defs
import proofs.«151773_j14405320311195_1_alg».proof.Proof.Gen.Kernel
import proofs.«151773_j14405320311195_1_alg».proof.Proof.Gen.Kernel.Frame
import proofs.«151773_j14405320311195_1_alg».proof.Proof.Gen.KernelIdeal
import proofs.«151773_j14405320311195_1_alg».proof.Proof.Gen.KernelIdeal.Frame
import proofs.«151773_j14405320311195_1_alg».proof.Proof.Gen.ReferenceIdeal
import proofs.«151773_j14405320311195_1_alg».proof.Proof.Gen.Pre_finite_inputs
import proofs.«151773_j14405320311195_1_alg».proof.Proof.KRun
import proofs.«151773_j14405320311195_1_alg».proof.Proof.KChain
import proofs.«151773_j14405320311195_1_alg».proof.Proof.RefRun

noncomputable section

/-! ## The claims -/

namespace Cert.Proof.Claims

open Idealize.ShloMosaic Idealize.SL.Sem

/-- The kernel as printed runs and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The idealized reference runs and leaves its arguments as launched: its run, with the result forgotten. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation: nothing to preserve. -/
theorem preserves : Cert.preserves_Kernel_KernelIdeal := trivial

/-- On the extended reals both programs end with the model's value of the arguments: the kernel's last boundary holds it
    at the result (each dense region is the host's product of its input arrays, the last region the row-wise
    log-softmax, the host stretches between them the reference's own), and the reference's run states it; the
    arguments agree. -/
theorem algebraic : Cert.algebraic_KernelIdeal_ReferenceIdeal := by
  intro m ρ m' ρ' _ hagree
  refine ⟨fun c => Cert.Bridge.model (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono (fun _ h c => ⟨(h c).1.trans (Cert.Bridge.Chain.result m ρ c), (h c).2⟩)
      (Cert.KernelIdeal.RunNamed.run (F := Ideal) m ρ)
  · refine (θ_run Cert.ReferenceIdeal.defs _ _).mono (fun _ h c => ⟨(h c).1.trans ?_, (h c).2⟩)
      (Cert.ReferenceIdeal.ValueP.run (F := Ideal) m' ρ')
    obtain ⟨h0, h1, h2, h3, h4, h5, h6, h7⟩ := hagree c
    rw [h0, h1, h2, h3, h4, h5, h6, h7]

end Cert.Proof.Claims

namespace Cert.Proof

theorem claim : Cert.Claim :=
  ⟨Cert.Kernel.Gen.facts, Cert.KernelIdeal.Gen.facts, Cert.ReferenceIdeal.Gen.facts, Cert.Pre_finite_inputs.Gen.facts,
    Claims.frame_kernel, Claims.frame_kernelIdeal, Claims.frame_referenceIdeal, Claims.preserves, Claims.algebraic⟩

end Cert.Proof

end
